-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x256x64 : Shape := ⟨4, ![8, 256, 256, 64]⟩
abbrev S320x64 : Shape := ⟨2, ![320, 64]⟩
abbrev S320 : Shape := ⟨1, ![320]⟩
abbrev S4 : Shape := ⟨1, ![4]⟩
abbrev S_ : Shape := ⟨0, ![]⟩

class Facts : Prop where
  bcast_S_S8x256x256x64 : S_.BroadcastsInDim S8x256x256x64 (![] : Fin 0 → Fin S8x256x256x64.rank)
  reducesTo_S8x256x256x64_S_d0_1_2_3 : S8x256x256x64.ReducesTo [0, 1, 2, 3] S_
  h_S_ : 0 < S_.numel
  bcast_S_S320x64 : S_.BroadcastsInDim S320x64 (![] : Fin 0 → Fin S320x64.rank)
  reducesTo_S320x64_S_d0_1 : S320x64.ReducesTo [0, 1] S_
  bcast_S_S320 : S_.BroadcastsInDim S320 (![] : Fin 0 → Fin S320.rank)
  reducesTo_S320_S_d0 : S320.ReducesTo [0] S_
  bcast_S_S4 : S_.BroadcastsInDim S4 (![] : Fin 0 → Fin S4.rank)
  reducesTo_S4_S_d0 : S4.ReducesTo [0] S_

variable [Facts]

def fn_part1 {F : FTy → Type} [FloatOps F] (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  main_v18

def fn {F : FTy → Type} [FloatOps F] (main_arg0 : FVec F S8x256x256x64 .f32) (main_arg1 : FVec F S320x64 .f32) (main_arg2 : FVec F S320 .f32) (main_arg3 : FVec F S4 .f32) : IVec S_ 1 :=
  let main_v0 : FVec F S8x256x256x64 .f32 := Host.absf main_arg0
  let main_cst : FVec F S_ .f32 := constant S_ .f32 0x7F800000#32
  let main_v1 : FVec F S8x256x256x64 .f32 := broadcastInDim S8x256x256x64 ![] bcast_S_S8x256x256x64 main_cst
  let main_v2 : IVec S8x256x256x64 1 := cmpf .olt main_v0 main_v1
  let main_c : IVec S_ 1 := constantI S_ 1 1#1
  let main_v3 : IVec S_ 1 := (fun x v => Host.reduce IntOp.andi x v reducesTo_S8x256x256x64_S_d0_1_2_3 h_S_) main_v2 main_c
  let main_v4 : FVec F S320x64 .f32 := Host.absf main_arg1
  let main_cst_0 : FVec F S_ .f32 := constant S_ .f32 0x7F800000#32
  let main_v5 : FVec F S320x64 .f32 := broadcastInDim S320x64 ![] bcast_S_S320x64 main_cst_0
  let main_v6 : IVec S320x64 1 := cmpf .olt main_v4 main_v5
  let main_c_1 : IVec S_ 1 := constantI S_ 1 1#1
  let main_v7 : IVec S_ 1 := (fun x v => Host.reduce IntOp.andi x v reducesTo_S320x64_S_d0_1 h_S_) main_v6 main_c_1
  let main_v8 : IVec S_ 1 := andi main_v3 main_v7
  let main_v9 : FVec F S320 .f32 := Host.absf main_arg2
  let main_cst_2 : FVec F S_ .f32 := constant S_ .f32 0x7F800000#32
  let main_v10 : FVec F S320 .f32 := broadcastInDim S320 ![] bcast_S_S320 main_cst_2
  let main_v11 : IVec S320 1 := cmpf .olt main_v9 main_v10
  let main_c_3 : IVec S_ 1 := constantI S_ 1 1#1
  let main_v12 : IVec S_ 1 := (fun x v => Host.reduce IntOp.andi x v reducesTo_S320_S_d0 h_S_) main_v11 main_c_3
  let main_v13 : IVec S_ 1 := andi main_v8 main_v12
  let main_v14 : FVec F S4 .f32 := Host.absf main_arg3
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_v13 main_v16
-- ==== Kernel.lean ====
abbrev S8x256x256x64 : Shape := ⟨4, ![8, 256, 256, 64]⟩
abbrev S320x64 : Shape := ⟨2, ![320, 64]⟩
abbrev S320 : Shape := ⟨1, ![320]⟩
abbrev S4 : Shape := ⟨1, ![4]⟩
abbrev S4x16 : Shape := ⟨2, ![4, 16]⟩
abbrev S64 : Shape := ⟨1, ![64]⟩
abbrev S_ : Shape := ⟨0, ![]⟩
abbrev S256 : Shape := ⟨1, ![256]⟩
abbrev S320x1 : Shape := ⟨2, ![320, 1]⟩
abbrev S64x320 : Shape := ⟨2, ![64, 320]⟩
abbrev S1x320 : Shape := ⟨2, ![1, 320]⟩
abbrev S8x8x32x256x64 : Shape := ⟨5, ![8, 8, 32, 256, 64]⟩
abbrev S8x8x1x256x64 : Shape := ⟨5, ![8, 8, 1, 256, 64]⟩
abbrev S8x8x256x64 : Shape := ⟨4, ![8, 8, 256, 64]⟩
abbrev S1x8x1x256x64 : Shape := ⟨5, ![1, 8, 1, 256, 64]⟩
abbrev S8x256x64 : Shape := ⟨3, ![8, 256, 64]⟩
abbrev S2048x64 : Shape := ⟨2, ![2048, 64]⟩
abbrev S2048x320 : Shape := ⟨2, ![2048, 320]⟩
abbrev S8x256x320 : Shape := ⟨3, ![8, 256, 320]⟩
abbrev S8x256x256 : Shape := ⟨3, ![8, 256, 256]⟩
abbrev S8x8x32x4x64 : Shape := ⟨5, ![8, 8, 32, 4, 64]⟩
abbrev S32x4x64x8x8 : Shape := ⟨5, ![32, 4, 64, 8, 8]⟩
abbrev S128x64x64 : Shape := ⟨3, ![128, 64, 64]⟩
abbrev S8x8x32x4x16 : Shape := ⟨5, ![8, 8, 32, 4, 16]⟩
abbrev S32x4x16x8x8 : Shape := ⟨5, ![32, 4, 16, 8, 8]⟩
abbrev S128x16x64 : Shape := ⟨3, ![128, 16, 64]⟩
abbrev S128x64x16 : Shape := ⟨3, ![128, 64, 16]⟩
abbrev S32x4x8x8x16 : Shape := ⟨5, ![32, 4, 8, 8, 16]⟩
abbrev S8x32x8x4x16 : Shape := ⟨5, ![8, 32, 8, 4, 16]⟩
abbrev S1x8x256x64 : Shape := ⟨4, ![1, 8, 256, 64]⟩

abbrev nBuf : Space → Nat
  | .hbm => 17
  | .vmem => 6
  | .smem => 0
  | _ => 0

abbrev bufTy : (tb : Table) → Fin (tcTables nBuf tb) → BufTy
  | .hbm, ⟨0, _⟩ => ⟨S8x256x256x64, .f32⟩
  | .hbm, ⟨1, _⟩ => ⟨S320x64, .f32⟩
  | .hbm, ⟨2, _⟩ => ⟨S320, .f32⟩
  | .hbm, ⟨3, _⟩ => ⟨S4, .f32⟩
  | .hbm, ⟨4, _⟩ => ⟨S4x16, .f32⟩
  | .hbm, ⟨5, _⟩ => ⟨S64, .f32⟩
  | .hbm, ⟨6, _⟩ => ⟨S_, .f32⟩
  | .hbm, ⟨7, _⟩ => ⟨S256, .f32⟩
  | .hbm, ⟨8, _⟩ => ⟨S320, .f32⟩
  | .hbm, ⟨9, _⟩ => ⟨S320x1, .f32⟩
  | .hbm, ⟨10, _⟩ => ⟨S320x64, .f32⟩
  | .hbm, ⟨11, _⟩ => ⟨S320x64, .f32⟩
  | .hbm, ⟨12, _⟩ => ⟨S320, .f32⟩
  | .hbm, ⟨13, _⟩ => ⟨S64x320, .f32⟩
  | .hbm, ⟨14, _⟩ => ⟨S1x320, .f32⟩
  | .hbm, ⟨15, _⟩ => ⟨S8x8x32x256x64, .f32⟩
  | .hbm, ⟨16, _⟩ => ⟨S8x256x256x64, .f32⟩
  | .local _ .vmem, ⟨0, _⟩ => ⟨S8x8x1x256x64, .f32⟩
  | .local _ .vmem, ⟨1, _⟩ => ⟨S8x8x1x256x64, .f32⟩
  | .local _ .vmem, ⟨2, _⟩ => ⟨S64x320, .f32⟩
  | .local _ .vmem, ⟨3, _⟩ => ⟨S1x320, .f32⟩
  | .local _ .vmem, ⟨4, _⟩ => ⟨S8x8x256x64, .f32⟩
  | .local _ .vmem, ⟨5, _⟩ => ⟨S8x8x256x64, .f32⟩
  | _, _ => ⟨S8x256x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_off1 (k0_t1 : Fin k0_t1_loop.trips) : Fin 5 → Nat :=
  let c0_i32 : BitVec 32 := 0#32
  let c1_i32 : BitVec 32 := 1#32
  let arg5 : BitVec 32 := Scf.iv c0_i32 c1_i32 k0_t1
  let v5 : Index := Scalar.indexCast arg5
  let c0_4 : Index := 0#32
  let c0_5 : Index := 0#32
  let c0_6 : Index := 0#32
  let c0_7 : Index := 0#32
  ![v5.toNat, 0, 0, 0, 0]
def k0_off2 (k0_t1 : Fin k0_t1_loop.trips) : Fin 4 → Nat :=
  let c0_i32 : BitVec 32 := 0#32
  let c1_i32 : BitVec 32 := 1#32
  let arg5 : BitVec 32 := Scf.iv c0_i32 c1_i32 k0_t1
  let v25 : Index := Scalar.indexCast arg5
  let c0_9 : Index := 0#32
  let c0_10 : Index := 0#32
  let c0_11 : Index := 0#32
  ![v25.toNat, 0, 0, 0]
def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S8x8x1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x320 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x320 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x8x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S4_S4x16_0 : S4.BroadcastsInDim S4x16 (![0] : Fin 1 → Fin S4x16.rank)
  shapeCasts_S4x16_S64 : S4x16.ShapeCasts S64
  bcast_S_S256 : S_.BroadcastsInDim S256 (![] : Fin 0 → Fin S256.rank)
  concatenates_S256_S64_S320_d0 : Shape.Concatenates [S256, S64] S320 0
  bcast_S320_S320x1_0 : S320.BroadcastsInDim S320x1 (![0] : Fin 1 → Fin S320x1.rank)
  bcast_S320x1_S320x64_0_1 : S320x1.BroadcastsInDim S320x64 (![0, 1] : Fin 2 → Fin S320x64.rank)
  transposes_S320x64_S64x320_1_0 : S320x64.Transposes [1, 0] S64x320
  shapeCasts_S320_S1x320 : S320.ShapeCasts S1x320
  shapeCasts_S8x256x256x64_S8x8x32x256x64 : S8x256x256x64.ShapeCasts S8x8x32x256x64
  inb_S64x320_S64x320_0_0 : ∀ a, (![0, 0] : Fin 2 → Nat) a + S64x320.size a ≤ S64x320.size a
  h_S64x320 : 0 < S64x320.numel
  shapeCasts_S64x320_S64x320 : S64x320.ShapeCasts S64x320
  inb_S1x320_S1x320_0_0 : ∀ a, (![0, 0] : Fin 2 → Nat) a + S1x320.size a ≤ S1x320.size a
  h_S1x320 : 0 < S1x320.numel
  shapeCasts_S1x320_S1x320 : S1x320.ShapeCasts S1x320
  h_S1x8x1x256x64 : 0 < S1x8x1x256x64.numel
  shapeCasts_S1x8x1x256x64_S8x256x64 : S1x8x1x256x64.ShapeCasts S8x256x64
  shapeCasts_S8x256x64_S2048x64 : S8x256x64.ShapeCasts S2048x64
  broadcasts_S1x320_S2048x320 : S1x320.Broadcasts S2048x320
  shapeCasts_S2048x320_S8x256x320 : S2048x320.ShapeCasts S8x256x320
  slices_S8x256x320_o0_0_0_S8x256x256 : S8x256x320.Slices ![0, 0, 0] S8x256x256
  slices_S8x256x320_o0_0_256_S8x256x64 : S8x256x320.Slices ![0, 0, 256] S8x256x64
  shapeCasts_S8x256x256_S8x8x32x4x64 : S8x256x256.ShapeCasts S8x8x32x4x64
  transposes_S8x8x32x4x64_p2_3_4_0_1_S32x4x64x8x8 : S8x8x32x4x64.Transposes [2, 3, 4, 0, 1] S32x4x64x8x8
  shapeCasts_S32x4x64x8x8_S128x64x64 : S32x4x64x8x8.ShapeCasts S128x64x64
  shapeCasts_S8x256x64_S8x8x32x4x16 : S8x256x64.ShapeCasts S8x8x32x4x16
  transposes_S8x8x32x4x16_p2_3_4_0_1_S32x4x16x8x8 : S8x8x32x4x16.Transposes [2, 3, 4, 0, 1] S32x4x16x8x8
  shapeCasts_S32x4x16x8x8_S128x16x64 : S32x4x16x8x8.ShapeCasts S128x16x64
  shapeCasts_S128x64x16_S32x4x8x8x16 : S128x64x16.ShapeCasts S32x4x8x8x16
  transposes_S32x4x8x8x16_p2_0_3_1_4_S8x32x8x4x16 : S32x4x8x8x16.Transposes [2, 0, 3, 1, 4] S8x32x8x4x16
  shapeCasts_S8x32x8x4x16_S8x256x64 : S8x32x8x4x16.ShapeCasts S8x256x64
  h_S1x8x256x64 : 0 < S1x8x256x64.numel
  shapeCasts_S1x8x256x64_S8x256x64 : S1x8x256x64.ShapeCasts S8x256x64
  shapeCasts_S8x256x64_S1x8x256x64 : S8x256x64.ShapeCasts S1x8x256x64
  dot_S2048x64_S64x320_S2048x320_1_0_0_1_n_n_wf : DotDims.WF S2048x64 S64x320 S2048x320 [1] [0] [0] [1] [] []
  dot_S128x64x64_S128x16x64_S128x64x16_2_2_1_1_0_0_wf : DotDims.WF S128x64x64 S128x16x64 S128x64x16 [2] [2] [1] [1] [0] [0]
  hrank0 : 0 < grid0.rank
  k0_t1_ok : k0_t1_loop.OK
  k0_off1_inb : ∀ k0_t1 : Fin k0_t1_loop.trips, ∀ a, (k0_off1 k0_t1) a + S1x8x1x256x64.size a ≤ S8x8x1x256x64.size a
  k0_off2_inb : ∀ k0_t1 : Fin k0_t1_loop.trips, ∀ a, (k0_off2 k0_t1) a + S1x8x256x64.size a ≤ S8x8x256x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x8x1x256x64.size a ≤ S8x8x32x256x64.size a
  hwx0_0 : ∀ i : grid0.Coords, EltTy.bits .f32 = 32 ∨ (Rect.block (s := S8x8x32x256x64) S8x8x1x256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x320.size a ≤ S64x320.size a
  hwx0_1 : ∀ i : grid0.Coords, EltTy.bits .f32 = 32 ∨ (Rect.block (s := S64x320) S64x320.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x320.size a ≤ S1x320.size a
  hwx0_2 : ∀ i : grid0.Coords, EltTy.bits .f32 = 32 ∨ (Rect.block (s := S1x320) S1x320.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x8x256x64.size a ≤ S8x256x256x64.size a
  hwx0_3 : ∀ i : grid0.Coords, EltTy.bits .f32 = 32 ∨ (Rect.block (s := S8x256x256x64) S8x8x256x64.size (cc0_transform_3 i) (hinb0_3 i)).WholeWords (EltTy.packing .f32)

variable [Facts₀]

def dot_S2048x64_S64x320_S2048x320_1_0_0_1_n_n : DotDims S2048x64 S64x320 S2048x320 where
  lhsContracting := [1]
  rhsContracting := [0]
  lhsNonContracting := [0]
  rhsNonContracting := [1]
  lhsBatch := []
  rhsBatch := []
  wf := dot_S2048x64_S64x320_S2048x320_1_0_0_1_n_n_wf
def dot_S128x64x64_S128x16x64_S128x64x16_2_2_1_1_0_0 : DotDims S128x64x64 S128x16x64 S128x64x16 where
  lhsContracting := [2]
  rhsContracting := [2]
  lhsNonContracting := [1]
  rhsNonContracting := [1]
  lhsBatch := [0]
  rhsBatch := [0]
  wf := dot_S128x64x64_S128x16x64_S128x64x16_2_2_1_1_0_0_wf

abbrev win0_0 : Pipeline.Window sig grid0 :=
  Pipeline.Window.ofSpec (Memref.whole main_v10) S8x8x1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S64x320.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x320.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S8x8x256x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x256x256x64 : Shape := ⟨4, ![8, 256, 256, 64]⟩
abbrev S320x64 : Shape := ⟨2, ![320, 64]⟩
abbrev S320 : Shape := ⟨1, ![320]⟩
abbrev S4 : Shape := ⟨1, ![4]⟩
abbrev S8x256x256x320 : Shape := ⟨4, ![8, 256, 256, 320]⟩
abbrev S1x1x1x320 : Shape := ⟨4, ![1, 1, 1, 320]⟩
abbrev S_ : Shape := ⟨0, ![]⟩
abbrev S8x256x256x256 : Shape := ⟨4, ![8, 256, 256, 256]⟩
abbrev S8x8x32x8x32x4x64 : Shape := ⟨7, ![8, 8, 32, 8, 32, 4, 64]⟩
abbrev S8x32x32x4x64x8x8 : Shape := ⟨7, ![8, 32, 32, 4, 64, 8, 8]⟩
abbrev S8x32x32x4x64x64 : Shape := ⟨6, ![8, 32, 32, 4, 64, 64]⟩
abbrev S8x8x32x8x32x4x16 : Shape := ⟨7, ![8, 8, 32, 8, 32, 4, 16]⟩
abbrev S8x32x32x4x16x8x8 : Shape := ⟨7, ![8, 32, 32, 4, 16, 8, 8]⟩
abbrev S8x32x32x4x16x64 : Shape := ⟨6, ![8, 32, 32, 4, 16, 64]⟩
abbrev S8x32x32x4x64x16 : Shape := ⟨6, ![8, 32, 32, 4, 64, 16]⟩
abbrev S1x1x1x4x1x1 : Shape := ⟨6, ![1, 1, 1, 4, 1, 1]⟩
abbrev S8x32x32x4x8x8x16 : Shape := ⟨7, ![8, 32, 32, 4, 8, 8, 16]⟩
abbrev S8x4x16x32x8x32x8 : Shape := ⟨7, ![8, 4, 16, 32, 8, 32, 8]⟩
abbrev S8x64x256x256 : Shape := ⟨4, ![8, 64, 256, 256]⟩

abbrev nBuf : Space → Nat
  | .hbm => 27
  | .vmem => 0
  | .smem => 0
  | _ => 0

abbrev bufTy : (tb : Table) → Fin (tcTables nBuf tb) → BufTy
  | .hbm, ⟨0, _⟩ => ⟨S8x256x256x64, .f32⟩
  | .hbm, ⟨1, _⟩ => ⟨S320x64, .f32⟩
  | .hbm, ⟨2, _⟩ => ⟨S320, .f32⟩
  | .hbm, ⟨3, _⟩ => ⟨S4, .f32⟩
  | .hbm, ⟨4, _⟩ => ⟨S8x256x256x320, .f32⟩
  | .hbm, ⟨5, _⟩ => ⟨S1x1x1x320, .f32⟩
  | .hbm, ⟨6, _⟩ => ⟨S8x256x256x320, .f32⟩
  | .hbm, ⟨7, _⟩ => ⟨S8x256x256x320, .f32⟩
  | .hbm, ⟨8, _⟩ => ⟨S_, .i32⟩
  | .hbm, ⟨9, _⟩ => ⟨S_, .f32⟩
  | .hbm, ⟨10, _⟩ => ⟨S8x256x256x320, .f32⟩
  | .hbm, ⟨11, _⟩ => ⟨S8x256x256x256, .f32⟩
  | .hbm, ⟨12, _⟩ => ⟨S8x256x256x64, .f32⟩
  | .hbm, ⟨13, _⟩ => ⟨S8x8x32x8x32x4x64, .f32⟩
  | .hbm, ⟨14, _⟩ => ⟨S8x32x32x4x64x8x8, .f32⟩
  | .hbm, ⟨15, _⟩ => ⟨S8x32x32x4x64x64, .f32⟩
  | .hbm, ⟨16, _⟩ => ⟨S8x8x32x8x32x4x16, .f32⟩
  | .hbm, ⟨17, _⟩ => ⟨S8x32x32x4x16x8x8, .f32⟩
  | .hbm, ⟨18, _⟩ => ⟨S8x32x32x4x16x64, .f32⟩
  | .hbm, ⟨19, _⟩ => ⟨S8x32x32x4x64x16, .f32⟩
  | .hbm, ⟨20, _⟩ => ⟨S1x1x1x4x1x1, .f32⟩
  | .hbm, ⟨21, _⟩ => ⟨S8x32x32x4x64x16, .f32⟩
  | .hbm, ⟨22, _⟩ => ⟨S8x32x32x4x64x16, .f32⟩
  | .hbm, ⟨23, _⟩ => ⟨S8x32x32x4x8x8x16, .f32⟩
  | .hbm, ⟨24, _⟩ => ⟨S8x4x16x32x8x32x8, .f32⟩
  | .hbm, ⟨25, _⟩ => ⟨S8x64x256x256, .f32⟩
  | .hbm, ⟨26, _⟩ => ⟨S8x256x256x64, .f32⟩
  | _, _ => ⟨S8x256x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  bcast_S320_S1x1x1x320_3 : S320.BroadcastsInDim S1x1x1x320 (![3] : Fin 1 → Fin S1x1x1x320.rank)
  bcast_S1x1x1x320_S8x256x256x320_0_1_2_3 : S1x1x1x320.BroadcastsInDim S8x256x256x320 (![0, 1, 2, 3] : Fin 4 → Fin S8x256x256x320.rank)
  pads_S8x256x256x320_S8x256x256x320_000_000_000_000 : S8x256x256x320.Pads (![0, 0, 0, 0] : Fin 4 → Nat) ![0, 0, 0, 0] ![0, 0, 0, 0] S8x256x256x320
  h_S_ : 0 < S_.numel
  slices_S8x256x256x320_S8x256x256x256_0_0_0_0 : S8x256x256x320.Slices ![0, 0, 0, 0] S8x256x256x256
  slices_S8x256x256x320_S8x256x256x64_0_0_0_256 : S8x256x256x320.Slices ![0, 0, 0, 256] S8x256x256x64
  shapeCasts_S8x256x256x256_S8x8x32x8x32x4x64 : S8x256x256x256.ShapeCasts S8x8x32x8x32x4x64
  transposes_S8x8x32x8x32x4x64_S8x32x32x4x64x8x8_0_2_4_5_6_1_3 : S8x8x32x8x32x4x64.Transposes [0, 2, 4, 5, 6, 1, 3] S8x32x32x4x64x8x8
  shapeCasts_S8x32x32x4x64x8x8_S8x32x32x4x64x64 : S8x32x32x4x64x8x8.ShapeCasts S8x32x32x4x64x64
  shapeCasts_S8x256x256x64_S8x8x32x8x32x4x16 : S8x256x256x64.ShapeCasts S8x8x32x8x32x4x16
  transposes_S8x8x32x8x32x4x16_S8x32x32x4x16x8x8_0_2_4_5_6_1_3 : S8x8x32x8x32x4x16.Transposes [0, 2, 4, 5, 6, 1, 3] S8x32x32x4x16x8x8
  shapeCasts_S8x32x32x4x16x8x8_S8x32x32x4x16x64 : S8x32x32x4x16x8x8.ShapeCasts S8x32x32x4x16x64
  bcast_S4_S1x1x1x4x1x1_3 : S4.BroadcastsInDim S1x1x1x4x1x1 (![3] : Fin 1 → Fin S1x1x1x4x1x1.rank)
  bcast_S1x1x1x4x1x1_S8x32x32x4x64x16_0_1_2_3_4_5 : S1x1x1x4x1x1.BroadcastsInDim S8x32x32x4x64x16 (![0, 1, 2, 3, 4, 5] : Fin 6 → Fin S8x32x32x4x64x16.rank)
  shapeCasts_S8x32x32x4x64x16_S8x32x32x4x8x8x16 : S8x32x32x4x64x16.ShapeCasts S8x32x32x4x8x8x16
  transposes_S8x32x32x4x8x8x16_S8x4x16x32x8x32x8_0_3_6_1_4_2_5 : S8x32x32x4x8x8x16.Transposes [0, 3, 6, 1, 4, 2, 5] S8x4x16x32x8x32x8
  shapeCasts_S8x4x16x32x8x32x8_S8x64x256x256 : S8x4x16x32x8x32x8.ShapeCasts S8x64x256x256
  transposes_S8x64x256x256_S8x256x256x64_0_2_3_1 : S8x64x256x256.Transposes [0, 2, 3, 1] S8x256x256x64
  dot_S8x256x256x64_S320x64_S8x256x256x320_3_1_012_0_n_n_wf : DotDims.WF S8x256x256x64 S320x64 S8x256x256x320 [3] [1] [0, 1, 2] [0] [] []
  dot_S8x32x32x4x64x64_S8x32x32x4x16x64_S8x32x32x4x64x16_5_5_4_4_0123_0123_wf : DotDims.WF S8x32x32x4x64x64 S8x32x32x4x16x64 S8x32x32x4x64x16 [5] [5] [4] [4] [0, 1, 2, 3] [0, 1, 2, 3]

variable [Facts₀]

def dot_S8x256x256x64_S320x64_S8x256x256x320_3_1_012_0_n_n : DotDims S8x256x256x64 S320x64 S8x256x256x320 where
  lhsContracting := [3]
  rhsContracting := [1]
  lhsNonContracting := [0, 1, 2]
  rhsNonContracting := [0]
  lhsBatch := []
  rhsBatch := []
  wf := dot_S8x256x256x64_S320x64_S8x256x256x320_3_1_012_0_n_n_wf
def dot_S8x32x32x4x64x64_S8x32x32x4x16x64_S8x32x32x4x64x16_5_5_4_4_0123_0123 : DotDims S8x32x32x4x64x64 S8x32x32x4x16x64 S8x32x32x4x64x16 where
  lhsContracting := [5]
  rhsContracting := [5]
  lhsNonContracting := [4]
  rhsNonContracting := [4]
  lhsBatch := [0, 1, 2, 3]
  rhsBatch := [0, 1, 2, 3]
  wf := dot_S8x32x32x4x64x64_S8x32x32x4x16x64_S8x32x32x4x64x16_5_5_4_4_0123_0123_wf

class Facts : Prop extends Facts₀ where

variable [Facts]
-- ==== Proof.Spec.lean ====
/-
  The specification of the windowed attention product, index by index, over the extended reals.

  A pixel (b, r, c) of the image is first projected to 320 channels, `proj`: channel o is
  Σ_k x[b,r,c,k] · w[o,k] + bias[o]. Channels 0..255 are the queries (head·64 + window position),
  channels 256..319 the keys (256 + head·16 + d). The 256×256 image is cut into an 8×8 grid of strided
  windows: row r belongs to window row r / 8 on the output side, and the 64 pixels a window gathers
  are the rows (p / 8)·32 + r / 8 and the columns (p % 8)·32 + c / 8 for p < 64. Output entry (b, r, c, ch)
  is the sum over those 64 pixels of the query channel (ch / 16)·64 + (r % 8)·8 + c % 8 times the key channel
  256 + ch, scaled by the temperature of head ch / 16. The two programs differ in where the scale is
  applied: after the sum (`refOut`) or folded into the key rows of the weights and bias (`kerOut`).
-/
import Idealize.ShloMosaic.PureOps.Ideal
import Idealize.ShloMosaic.Lib.ValueIdx

noncomputable section

open scoped BigOperators

namespace Cert.WindowAttn

open Idealize.ShloMosaic Idealize.ShloMosaic.ValueIdx

/-- The image, the projection weights, the bias and the per-head temperature as arrays of extended reals. -/
abbrev XArr := (⟨4, ![8, 256, 256, 64]⟩ : Shape).Idx → EReal
abbrev WArr := (⟨2, ![320, 64]⟩ : Shape).Idx → EReal
abbrev BArr := (⟨1, ![320]⟩ : Shape).Idx → EReal
abbrev TArr := (⟨1, ![4]⟩ : Shape).Idx → EReal

/-- The image row of the p-th pixel of the strided window that output row r reads. -/
def rowOf (p : Fin 64) (r : Fin 256) : Fin 256 := ⟨(p.val / 8) * 32 + r.val / 8, by omega⟩
/-- The image column of the p-th pixel of the strided window that output column c reads. -/
def colOf (p : Fin 64) (c : Fin 256) : Fin 256 := ⟨(p.val % 8) * 32 + c.val / 8, by omega⟩
/-- The query channel of output entry (r, c, ch): head ch / 16, window position (r % 8, c % 8). -/
def qCh (r c : Fin 256) (ch : Fin 64) : Fin 320 := ⟨(ch.val / 16) * 64 + ((r.val % 8) * 8 + c.val % 8), by omega⟩
/-- The key channel of output channel ch. -/
def kCh (ch : Fin 64) : Fin 320 := ⟨256 + ch.val, by omega⟩
/-- The head of output channel ch. -/
def headOf (ch : Fin 64) : Fin 4 := ⟨ch.val / 16, by omega⟩

/-- The windowed product of queries and keys taken from one projected image `qk`. -/
def attn (qk : Fin 8 → Fin 256 → Fin 256 → Fin 320 → EReal) (b : Fin 8) (r c : Fin 256) (ch : Fin 64) : EReal :=
  ∑ p : Fin 64, qk b (rowOf p r) (colOf p c) (qCh r c ch) * qk b (rowOf p r) (colOf p c) (kCh ch)

/-- The per-pixel projection. -/
def proj (x : XArr) (w : WArr) (bias : BArr) (b : Fin 8) (r c : Fin 256) (o : Fin 320) : EReal :=
  (∑ k : Fin 64, x (ix4 b r c k) * w (ix2 o k)) + bias (ix1 o)

/-- The scale folded into channel o: one on the query channels, the head's temperature on the key channels. -/
def scale (t : TArr) (o : Fin 320) : EReal :=
  if o.val < 256 then 1 else t (ix1 (⟨(o.val - 256) / 16, by have := o.isLt; omega⟩ : Fin 4))

/-- The projection with the scale folded into the weights and the bias. -/
def projScaled (x : XArr) (w : WArr) (bias : BArr) (t : TArr) (b : Fin 8) (r c : Fin 256) (o : Fin 320) : EReal :=
  (∑ k : Fin 64, x (ix4 b r c k) * (w (ix2 o k) * scale t o)) + bias (ix1 o) * scale t o

/-- The result with the temperature applied after the window sum. -/
def refOut (x : XArr) (w : WArr) (bias : BArr) (t : TArr) : XArr :=
  fun i => attn (proj x w bias) (i 0) (i 1) (i 2) (i 3) * t (ix1 (headOf (i 3)))

/-- The result with the temperature folded into the projection. -/
def kerOut (x : XArr) (w : WArr) (bias : BArr) (t : TArr) : XArr :=
  fun i => attn (projScaled x w bias t) (i 0) (i 1) (i 2) (i 3)

end Cert.WindowAttn

end
-- ==== Proof.LibRealSum.lean ====
/-
  Real numbers inside the extended reals: they are closed under sums, products, maxima and finite sums,
  and on them a weighted sum of matrix-vector products may be exchanged with the matrix-vector product of
  the weighted sums. A sum over 136 consecutive coordinates is also split into blocks of 64, 64 and 8.
-/
import Idealize.ShloMosaic.PureOps.Ideal

noncomputable section

namespace Cert.RealSum

/-- An extended real that is a real number. -/
def IsReal (x : EReal) : Prop := ∃ r : ℝ, x = (r : EReal)

/-- Zero is a real number. -/
theorem isReal_zero : IsReal 0 := ⟨0, EReal.coe_zero.symm⟩

/-- The image of a real number in the extended reals is a real number. -/
theorem isReal_coe (r : ℝ) : IsReal (r : EReal) := ⟨r, rfl⟩

/-- The sum of two real numbers is a real number. -/
theorem IsReal.add {x y : EReal} (hx : IsReal x) (hy : IsReal y) : IsReal (x + y) := by
  obtain ⟨p, rfl⟩ := hx
  obtain ⟨q, rfl⟩ := hy
  exact ⟨p + q, (EReal.coe_add p q).symm⟩

/-- The product of two real numbers is a real number. -/
theorem IsReal.mul {x y : EReal} (hx : IsReal x) (hy : IsReal y) : IsReal (x * y) := by
  obtain ⟨p, rfl⟩ := hx
  obtain ⟨q, rfl⟩ := hy
  exact ⟨p * q, (EReal.coe_mul p q).symm⟩

/-- The larger of two real numbers is a real number, because it is one of the two. -/
theorem IsReal.max {x y : EReal} (hx : IsReal x) (hy : IsReal y) : IsReal (max x y) := by
  rcases max_choice x y with h | h
  · rw [h]; exact hx
  · rw [h]; exact hy

/-- A finite sum of real numbers is a real number. -/
theorem isReal_sum {ι : Type} (s : Finset ι) (f : ι → EReal) (h : ∀ e ∈ s, IsReal (f e)) :
    IsReal (∑ e ∈ s, f e) :=
  Finset.sum_induction f IsReal (fun _ _ hx hy => hx.add hy) isReal_zero h

/-- An extended real that is neither plus nor minus infinity is a real number. -/
theorem isReal_of_ne_top_of_ne_bot {x : EReal} (ht : x ≠ ⊤) (hb : x ≠ ⊥) : IsReal x :=
  ⟨x.toReal, (EReal.coe_toReal ht hb).symm⟩

/-- A nonnegative extended real other than plus infinity is a real number: being at least zero, it is
    not minus infinity either. -/
theorem isReal_of_nonneg_of_ne_top {x : EReal} (h0 : 0 ≤ x) (ht : x ≠ ⊤) : IsReal x :=
  isReal_of_ne_top_of_ne_bot ht (lt_of_lt_of_le EReal.bot_lt_zero h0).ne'

/-- The image of a finite sum of real numbers is the sum of the images. -/
private theorem coe_sum {ι : Type} (s : Finset ι) (g : ι → ℝ) :
    ((∑ e ∈ s, g e : ℝ) : EReal) = ∑ e ∈ s, (g e : EReal) := by
  classical
  induction s using Finset.induction_on with
  | empty => rw [Finset.sum_empty, Finset.sum_empty, EReal.coe_zero]
  | insert b t hb ih => rw [Finset.sum_insert hb, Finset.sum_insert hb, EReal.coe_add, ih]

/-- The exchange law over the real numbers: both sides expand to the double sum of `a e k * w k * c e`,
    summed in the two possible orders. -/
private theorem commute_real {ι κ : Type} [Fintype κ] (s : Finset ι) (a : ι → κ → ℝ) (w : κ → ℝ)
    (c : ι → ℝ) :
    ∑ e ∈ s, (∑ k, a e k * w k) * c e = ∑ k, (∑ e ∈ s, a e k * c e) * w k := by
  simp only [Finset.sum_mul]
  rw [Finset.sum_comm]
  refine Finset.sum_congr rfl (fun k _ => Finset.sum_congr rfl (fun e _ => ?_))
  exact mul_right_comm (a e k) (w k) (c e)

/-- THE COMMUTE LAW: a weighted sum over edges of matrix-vector products is the matrix-vector product of
    the weighted sums, when every entry is real. Both edge sums start from zero, as a scatter-add into a
    zero array does. -/
theorem commute {ι κ : Type} [Fintype κ] (s : Finset ι) (a : ι → κ → EReal) (w : κ → EReal)
    (c : ι → EReal) (ha : ∀ e k, IsReal (a e k)) (hw : ∀ k, IsReal (w k)) (hc : ∀ e, IsReal (c e)) :
    (0 + ∑ e ∈ s, (∑ k, a e k * w k) * c e) = ∑ k, (0 + ∑ e ∈ s, a e k * c e) * w k := by
  choose a' ha' using ha
  choose w' hw' using hw
  choose c' hc' using hc
  -- every entry is the image of a real number, so both sides are images of real expressions
  have hL : (0 + ∑ e ∈ s, (∑ k, a e k * w k) * c e)
      = ((∑ e ∈ s, (∑ k, a' e k * w' k) * c' e : ℝ) : EReal) := by
    rw [zero_add, coe_sum]
    refine Finset.sum_congr rfl (fun e _ => ?_)
    rw [EReal.coe_mul, coe_sum, hc' e]
    congr 1
    refine Finset.sum_congr rfl (fun k _ => ?_)
    rw [EReal.coe_mul, ha' e k, hw' k]
  have hR : (∑ k, (0 + ∑ e ∈ s, a e k * c e) * w k)
      = ((∑ k, (∑ e ∈ s, a' e k * c' e) * w' k : ℝ) : EReal) := by
    rw [coe_sum]
    refine Finset.sum_congr rfl (fun k _ => ?_)
    rw [zero_add, EReal.coe_mul, coe_sum, hw' k]
    congr 1
    refine Finset.sum_congr rfl (fun e _ => ?_)
    rw [EReal.coe_mul, ha' e k, hc' e]
  rw [hL, hR, commute_real s a' w' c']

/-- A sum over 136 coordinates split as 64 + 64 + 8 consecutive coordinates, grouped
    (first + second) + third. -/
theorem sum_split_136 (f : Fin 136 → EReal) :
    ∑ q : Fin 136, f q
      = (∑ q : Fin 64, f ⟨q.val, by omega⟩ + ∑ q : Fin 64, f ⟨64 + q.val, by omega⟩)
        + ∑ q : Fin 8, f ⟨128 + q.val, by omega⟩ := by
  have h1 : ∑ q : Fin (64 + 64 + 8), f q
      = ∑ q : Fin (64 + 64), f (Fin.castAdd 8 q) + ∑ q : Fin 8, f (Fin.natAdd (64 + 64) q) :=
    Fin.sum_univ_add (fun q : Fin (64 + 64 + 8) => f q)
  have h2 : ∑ q : Fin (64 + 64), f (Fin.castAdd 8 q)
      = ∑ q : Fin 64, f (Fin.castAdd 8 (Fin.castAdd 64 q))
        + ∑ q : Fin 64, f (Fin.castAdd 8 (Fin.natAdd 64 q)) :=
    Fin.sum_univ_add (fun q : Fin (64 + 64) => f (Fin.castAdd 8 q))
  rw [h2] at h1
  exact h1

end Cert.RealSum
-- ==== Proof.Algebra.lean ====
/-
  The two placements of the temperature agree when every entry is a real number.

  On a query channel the folded scale is one, so the scaled projection is the projection itself. On a key
  channel the folded scale is the temperature s of the channel's head, and
      (Σ_k x_k · (w_k · s)) + β · s = ((Σ_k x_k · w_k) + β) · s,
      Σ_p q_p · (κ_p · s) = (Σ_p q_p · κ_p) · s.
  Both identities are distributivity, which fails on the extended reals when an infinity meets a sum of
  mixed signs; they are proved for real entries by moving to the real numbers and back.
-/
import proofs.«100604_j34291018891858_2_alg».proof.Proof.Spec
import proofs.«100604_j34291018891858_2_alg».proof.Proof.LibRealSum

noncomputable section

open scoped BigOperators

namespace Cert.WindowAttn

open Idealize.ShloMosaic Idealize.ShloMosaic.ValueIdx Cert.RealSum

/-- The image of a finite sum of real numbers in the extended reals is the sum of the images. -/
theorem coe_finset_sum {ι : Type} (s : Finset ι) (g : ι → ℝ) :
    ((∑ e ∈ s, g e : ℝ) : EReal) = ∑ e ∈ s, (g e : EReal) := by
  classical
  induction s using Finset.induction_on with
  | empty => rw [Finset.sum_empty, Finset.sum_empty, EReal.coe_zero]
  | insert j u hj ih => rw [Finset.sum_insert hj, Finset.sum_insert hj, EReal.coe_add, ih]

/-- A common real factor on the right of every second factor may be taken out of a finite sum of
    products: Σ a_e · (b_e · c) = (Σ a_e · b_e) · c. -/
theorem sum_mul_scale {ι : Type} (s : Finset ι) (a b : ι → EReal) (c : EReal)
    (ha : ∀ e, IsReal (a e)) (hb : ∀ e, IsReal (b e)) (hc : IsReal c) :
    ∑ e ∈ s, a e * (b e * c) = (∑ e ∈ s, a e * b e) * c := by
  choose a' ha' using ha
  choose b' hb' using hb
  obtain ⟨c', rfl⟩ := hc
  -- both sides are images of real expressions
  have hL : ∑ e ∈ s, a e * (b e * (c' : EReal)) = ((∑ e ∈ s, a' e * (b' e * c') : ℝ) : EReal) := by
    rw [coe_finset_sum]
    refine Finset.sum_congr rfl (fun e _ => ?_)
    rw [ha' e, hb' e, EReal.coe_mul, EReal.coe_mul]
  have hR : (∑ e ∈ s, a e * b e) * (c' : EReal) = (((∑ e ∈ s, a' e * b' e) * c' : ℝ) : EReal) := by
    rw [EReal.coe_mul, coe_finset_sum]
    congr 1
    refine Finset.sum_congr rfl (fun e _ => ?_)
    rw [ha' e, hb' e, EReal.coe_mul]
  rw [hL, hR, Finset.sum_mul]
  congr 1
  refine Finset.sum_congr rfl (fun e _ => ?_)
  ring

/-- Distributivity on real numbers inside the extended reals: p · c + q · c = (p + q) · c. -/
theorem real_add_mul {p q c : EReal} (hp : IsReal p) (hq : IsReal q) (hc : IsReal c) :
    p * c + q * c = (p + q) * c := by
  obtain ⟨p', rfl⟩ := hp
  obtain ⟨q', rfl⟩ := hq
  obtain ⟨c', rfl⟩ := hc
  rw [← EReal.coe_mul, ← EReal.coe_mul, ← EReal.coe_add, ← EReal.coe_add, ← EReal.coe_mul, add_mul]

/-- A common real factor may be taken out of a finite sum of products plus one more term:
    (Σ a_e · (b_e · c)) + β · c = ((Σ a_e · b_e) + β) · c. -/
theorem sum_mul_scale_add {ι : Type} (s : Finset ι) (a b : ι → EReal) (β c : EReal)
    (ha : ∀ e, IsReal (a e)) (hb : ∀ e, IsReal (b e)) (hβ : IsReal β) (hc : IsReal c) :
    (∑ e ∈ s, a e * (b e * c)) + β * c = ((∑ e ∈ s, a e * b e) + β) * c := by
  rw [sum_mul_scale s a b c ha hb hc]
  exact real_add_mul (isReal_sum s (fun e => a e * b e) (fun e _ => (ha e).mul (hb e))) hβ hc

/-- A query channel lies below 256, so its folded scale is one. -/
theorem scale_qCh (t : TArr) (r c : Fin 256) (ch : Fin 64) : scale t (qCh r c ch) = 1 := by
  have h : (qCh r c ch).val < 256 := by
    show (ch.val / 16) * 64 + ((r.val % 8) * 8 + c.val % 8) < 256
    omega
  unfold scale
  rw [if_pos h]

/-- A key channel is 256 + ch, so its folded scale is the temperature of head (256 + ch - 256) / 16 = ch / 16. -/
theorem scale_kCh (t : TArr) (ch : Fin 64) : scale t (kCh ch) = t (ix1 (headOf ch)) := by
  have h : ¬ (kCh ch).val < 256 := by
    show ¬ (256 + ch.val < 256)
    omega
  unfold scale
  rw [if_neg h]
  refine congrArg (fun j : Fin 4 => t (ix1 j)) (Fin.ext ?_)
  show (256 + ch.val - 256) / 16 = ch.val / 16
  omega

/-- Every projected entry is a real number when the image, the weights and the bias are. -/
theorem isReal_proj (x : XArr) (w : WArr) (bias : BArr)
    (hx : ∀ i, IsReal (x i)) (hw : ∀ i, IsReal (w i)) (hb : ∀ i, IsReal (bias i))
    (b : Fin 8) (r c : Fin 256) (o : Fin 320) : IsReal (proj x w bias b r c o) :=
  (isReal_sum Finset.univ _ (fun k _ => (hx _).mul (hw _))).add (hb _)

/-- On a query channel the scaled projection is the projection: a · 1 = a on every extended real. -/
theorem projScaled_qCh (x : XArr) (w : WArr) (bias : BArr) (t : TArr)
    (b : Fin 8) (r' c' r c : Fin 256) (ch : Fin 64) :
    projScaled x w bias t b r' c' (qCh r c ch) = proj x w bias b r' c' (qCh r c ch) := by
  unfold projScaled proj
  rw [scale_qCh]
  simp only [mul_one]

/-- On a key channel the scaled projection is the projection times the temperature of the channel's head,
    when every entry is real. -/
theorem projScaled_kCh (x : XArr) (w : WArr) (bias : BArr) (t : TArr)
    (hx : ∀ i, IsReal (x i)) (hw : ∀ i, IsReal (w i)) (hb : ∀ i, IsReal (bias i)) (ht : ∀ i, IsReal (t i))
    (b : Fin 8) (r c : Fin 256) (ch : Fin 64) :
    projScaled x w bias t b r c (kCh ch) = proj x w bias b r c (kCh ch) * t (ix1 (headOf ch)) := by
  unfold projScaled proj
  rw [scale_kCh]
  exact sum_mul_scale_add Finset.univ (fun k => x (ix4 b r c k)) (fun k => w (ix2 (kCh ch) k))
    (bias (ix1 (kCh ch))) (t (ix1 (headOf ch))) (fun _ => hx _) (fun _ => hw _) (hb _) (ht _)

/-- The window sum of the scaled projection is the window sum of the projection times the temperature of the
    output channel's head, when every entry is real: the query factor is unchanged and the key factor carries
    the temperature, which comes out of the sum. -/
theorem attn_projScaled (x : XArr) (w : WArr) (bias : BArr) (t : TArr)
    (hx : ∀ i, IsReal (x i)) (hw : ∀ i, IsReal (w i)) (hb : ∀ i, IsReal (bias i)) (ht : ∀ i, IsReal (t i))
    (b : Fin 8) (r c : Fin 256) (ch : Fin 64) :
    attn (projScaled x w bias t) b r c ch = attn (proj x w bias) b r c ch * t (ix1 (headOf ch)) := by
  unfold attn
  have hterm : ∀ p : Fin 64,
      projScaled x w bias t b (rowOf p r) (colOf p c) (qCh r c ch)
          * projScaled x w bias t b (rowOf p r) (colOf p c) (kCh ch)
        = proj x w bias b (rowOf p r) (colOf p c) (qCh r c ch)
          * (proj x w bias b (rowOf p r) (colOf p c) (kCh ch) * t (ix1 (headOf ch))) := fun p =>
    congrArg₂ (fun u v : EReal => u * v)
      (projScaled_qCh x w bias t b (rowOf p r) (colOf p c) r c ch)
      (projScaled_kCh x w bias t hx hw hb ht b (rowOf p r) (colOf p c) ch)
  refine Eq.trans (Finset.sum_congr rfl (fun p _ => hterm p)) ?_
  exact sum_mul_scale Finset.univ
    (fun p : Fin 64 => proj x w bias b (rowOf p r) (colOf p c) (qCh r c ch))
    (fun p : Fin 64 => proj x w bias b (rowOf p r) (colOf p c) (kCh ch))
    (t (ix1 (headOf ch)))
    (fun _ => isReal_proj x w bias hx hw hb _ _ _ _) (fun _ => isReal_proj x w bias hx hw hb _ _ _ _) (ht _)

/-- THE EQUIVALENCE: folding the temperature into the key rows of the weights and the bias gives the same
    result as applying it after the window sum, when every entry is a real number. -/
theorem kerOut_eq_refOut (x : XArr) (w : WArr) (bias : BArr) (t : TArr)
    (hx : ∀ i, Cert.RealSum.IsReal (x i)) (hw : ∀ i, Cert.RealSum.IsReal (w i))
    (hb : ∀ i, Cert.RealSum.IsReal (bias i)) (ht : ∀ i, Cert.RealSum.IsReal (t i)) :
    kerOut x w bias t = refOut x w bias t := by
  funext i
  exact attn_projScaled x w bias t hx hw hb ht (i 0) (i 1) (i 2) (i 3)

end Cert.WindowAttn

end
-- ==== Proof.LibFiniteAll.lean ====
/-
  A printed "every entry is finite" test, read back on the extended reals.

  The test `all(|x| < +inf)` prints as: the absolute value of every entry, compared (ordered, less-than) with the
  broadcast of the single-precision word of plus infinity, and the resulting array of truth values reduced by `and`
  into a result that has one index. On the extended reals the absolute value is `max x (-x)` and the word
  0x7F800000 (sign 0, exponent field all ones, mantissa 0) denotes plus infinity. So an entry passes the comparison
  exactly when it is neither plus nor minus infinity, that is, when it is a real number; and a reduction by `and`
  that came out 1 met a 1 at every entry.
-/
import Idealize.ShloMosaic.PureOps.Ideal
import Idealize.ShloMosaic.Lib.ReduceAll

namespace Cert.FiniteAll

open Idealize.ShloMosaic

/-- The single-precision word with sign 0, exponent field all ones and mantissa 0 denotes plus infinity. -/
theorem ofBits_inf_f32 : Ideal.ofBits .f32 0x7F800000#32 = (⊤ : EReal) := by
  simp [Ideal.ofBits, Ideal.ieee]

/-- An extended real whose absolute value `max x (-x)` lies below plus infinity is a real number: plus infinity
    is its own absolute value, and the negative of minus infinity is plus infinity. -/
theorem exists_real_of_abs_lt_top {x : EReal} (h : max x (-x) < ⊤) : ∃ r : ℝ, x = (r : EReal) := by
  induction x using EReal.rec with
  | bot => simp at h
  | coe r => exact ⟨r, rfl⟩
  | top => simp at h

/-- One entry: if the ordered comparison `|x| < +inf` answers 1, then `x` is a real number. -/
theorem exists_real_of_cmp (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf_f32] at h'
  unfold Ideal.cmp at h'
  by_cases hlt : max (x : EReal) (-(x : EReal)) < ⊤
  · exact exists_real_of_abs_lt_top hlt
  · simp [hlt] at h'

/-- THE ARRAY FACT: if `|x| < +inf`, taken entry by entry against the broadcast word of plus infinity and reduced
    by `and` into a result with one index, is 1, then every entry of `x` is a real number. The shape of `x`, the
    reduced axes, the shape the constant is broadcast from and the reduction's starting value are arbitrary. -/
theorem all_real_of_reduce_and {s t u z : Shape} {axes : List (Fin s.rank)} [Subsingleton t.Idx]
    (x : FVec Ideal s .f32) (dims : Fin z.rank → Fin s.rank) (hb : z.BroadcastsInDim s dims)
    (init : u.Idx → BitVec 1) (hr : s.ReducesTo axes t) (hu : 0 < u.numel) (j : t.Idx)
    (e : Host.reduce IntOp.andi
          (cmpf .olt (Host.absf x) (broadcastInDim s dims hb (constant (F := Ideal) z .f32 0x7F800000#32)))
          init hr hu j = 1#1)
    (i : s.Idx) : ∃ r : ℝ, (x i : EReal) = (r : EReal) :=
  exists_real_of_cmp (x i) (Host.reduce_andi_all _ init hr hu j e i)

end Cert.FiniteAll
-- ==== Proof.Finite.lean ====
/-
  From the printed precondition to "every entry is a real number".

  The precondition is the conjunction of four tests, one per argument array: the absolute value of every entry,
  compared (ordered, less-than) with plus infinity, and the truth values reduced by `and` into a single word.
  A conjunction of one-bit words is 1 exactly when each of them is, and a test that came out 1 says that every
  entry of its array is neither plus nor minus infinity, that is, a real number.
-/
import proofs.«100604_j34291018891858_2_alg».proof.Pre_finite_inputs
import proofs.«100604_j34291018891858_2_alg».proof.Proof.Gen.Pre_finite_inputs
import proofs.«100604_j34291018891858_2_alg».proof.Proof.LibFiniteAll
import proofs.«100604_j34291018891858_2_alg».proof.Proof.LibRealSum
import Idealize.ShloMosaic.Lib.ReduceAll
import Idealize.ShloMosaic.Lib.ValueIdx
import Idealize.ShloMosaic.Lib.Affine

noncomputable section

namespace Cert.WindowAttn.Finite

open Idealize.ShloMosaic Cert.Pre_finite_inputs

/-- The shape of rank zero has exactly one index: an index is a function on the empty set of axes. -/
instance : Subsingleton S_.Idx := ⟨fun _ _ => funext fun d => d.elim0⟩

/-- THE FINITENESS FACT: if the precondition answers 1, every entry of each of the four argument arrays is a
    real number. -/
theorem all_real [Cert.Pre_finite_inputs.Facts]
    (a0 : FVec Ideal Cert.Pre_finite_inputs.S8x256x256x64 .f32) (a1 : FVec Ideal S320x64 .f32)
    (a2 : FVec Ideal S320 .f32) (a3 : FVec Ideal S4 .f32)
    (h : Cert.Pre_finite_inputs.fn (F := Ideal) a0 a1 a2 a3 = fun _ => 1#1) :
    (∀ i, Cert.RealSum.IsReal (a0 i)) ∧ (∀ i, Cert.RealSum.IsReal (a1 i))
      ∧ (∀ i, Cert.RealSum.IsReal (a2 i)) ∧ (∀ i, Cert.RealSum.IsReal (a3 i)) := by
  -- the single word of the result, with the chain of operations in view
  have h0 := congrFun h ValueIdx.ix0
  dsimp only [Cert.Pre_finite_inputs.fn, Cert.Pre_finite_inputs.fn_part1] at h0
  -- the conjunctions, outermost first: ((test0 ∧ test1) ∧ test2) ∧ test3
  obtain ⟨h012, h3⟩ := IntOp.andi_eq_one.mp h0
  obtain ⟨h01, h2⟩ := IntOp.andi_eq_one.mp h012
  obtain ⟨h0', h1⟩ := IntOp.andi_eq_one.mp h01
  exact ⟨fun i => Cert.FiniteAll.all_real_of_reduce_and a0 _ _ _ _ _ ValueIdx.ix0 h0' i,
    fun i => Cert.FiniteAll.all_real_of_reduce_and a1 _ _ _ _ _ ValueIdx.ix0 h1 i,
    fun i => Cert.FiniteAll.all_real_of_reduce_and a2 _ _ _ _ _ ValueIdx.ix0 h2 i,
    fun i => Cert.FiniteAll.all_real_of_reduce_and a3 _ _ _ _ _ ValueIdx.ix0 h3 i⟩

end Cert.WindowAttn.Finite

end
-- ==== Proof.LibRank7.lean ====
/-
  Rank-7 indices by coordinates, and the row-major position of a rank-7 index as one sum of products.

  The row-major position of (i0, …, i6) in a shape of extents (d0, …, d6) is
  ((((((i0·d1 + i1)·d2 + i2)·d3 + i3)·d4 + i4)·d5 + i5)·d6 + i6): the rank-7 case of the forms the library has
  for ranks 1 to 6. A reshape between two shapes keeps this number, so two indices name the same entry of a
  reshaped array exactly when these two sums agree.
-/
import Idealize.ShloMosaic.Lib.ValueIdxRank6

namespace Cert.Rank7

open Idealize.ShloMosaic

/-- Rank 7: the row-major position as one sum of products. -/
theorem rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6
        + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

/-- A rank-7 index from its coordinates. -/
abbrev ix7 {n0 n1 n2 n3 n4 n5 n6 : Nat} (a : Fin n0) (b : Fin n1) (c : Fin n2) (d : Fin n3) (e : Fin n4) (f : Fin n5)
    (g : Fin n6) : (⟨7, ![n0, n1, n2, n3, n4, n5, n6]⟩ : Shape).Idx :=
  fun h => match h with
    | ⟨0, _⟩ => a | ⟨1, _⟩ => b | ⟨2, _⟩ => c | ⟨3, _⟩ => d | ⟨4, _⟩ => e | ⟨5, _⟩ => f | ⟨6, _⟩ => g

/-- Every rank-7 index is `ix7` of its coordinates. -/
theorem eq_ix7 {n0 n1 n2 n3 n4 n5 n6 : Nat} (j : (⟨7, ![n0, n1, n2, n3, n4, n5, n6]⟩ : Shape).Idx) :
    j = ix7 (j 0) (j 1) (j 2) (j 3) (j 4) (j 5) (j 6) := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl

end Cert.Rank7
-- ==== Proof.RefRead.lean ====
/-
  The reference program read index by index: its result array is `refOut` of its arguments.

  The program projects every pixel to 320 channels (a contraction over the 64 input channels plus a bias), pads by
  nothing, slices the 256 query channels and the 64 key channels, and brings both to the window layout by a reshape, a
  transpose and a reshape: [8,256,256,·] → [8,8,32,8,32,4,·] → [8,32,32,4,·,8,8] → [8,32,32,4,·,64]. Image row
  (k / 8)·32 + r / 8 is split as (k / 8, r / 8), image column (k % 8)·32 + c / 8 as (k % 8, c / 8), a query channel as
  (head, window position), a key channel as (head, place in the head); the two window coordinates k / 8 and k % 8 are
  then merged into the one contracted axis k < 64. The batched contraction over k is the window sum; it is multiplied
  by the head's temperature, and a reshape, a transpose, a reshape and a transpose bring the [8,32,32,4,64,16] array
  back to the image layout [8,256,256,64]: window position p = (r % 8)·8 + c % 8 is split, rows are rejoined as
  (r / 8)·8 + r % 8, columns likewise, channels as (ch / 16)·16 + ch % 16.

  A reshape keeps the row-major position, so each reshape read at an index is one equation between two sums of
  products over literal extents; a transpose permutes coordinates; the pad with all paddings zero is the identity.
  Each stage is read at the coordinates the next stage asks for, from the projection up to the result.
-/
import proofs.«100604_j34291018891858_2_alg».proof.Proof.Gen.ReferenceIdeal.Read
import proofs.«100604_j34291018891858_2_alg».proof.Proof.Spec
import proofs.«100604_j34291018891858_2_alg».proof.Proof.LibRank7
import Idealize.ShloMosaic.Lib.ValueIdxRank6
import Idealize.ShloMosaic.Lib.Pipeline.Value
import Idealize.ShloMosaic.Lib.ValueIdx
import Idealize.ShloMosaic.PureOps.Ideal.Laws

noncomputable section

open scoped BigOperators

namespace Cert.WindowAttn.Ref

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.Rank7 Cert.WindowAttn

variable {α : Type}

/-! ### Coordinates

Result entry (b, r, c, ch): r = 8·(r / 8) + r % 8, c likewise, ch = 16·(ch / 16) + ch % 16; a window pixel number
k < 64 is 8·(k / 8) + k % 8. -/

/-- The remainder of an output channel by 16: its place inside its head. -/
def lo16 (ch : Fin 64) : Fin 16 := ⟨ch.val % 16, by omega⟩
/-- The quotient of an image row (or column) by 8. -/
def q8 (r : Fin 256) : Fin 32 := ⟨r.val / 8, by omega⟩
/-- The remainder of an image row (or column) by 8. -/
def m8 (r : Fin 256) : Fin 8 := ⟨r.val % 8, by omega⟩
/-- The pair (r % 8, c % 8) as one number below 64. -/
def wpos (r c : Fin 256) : Fin 64 := ⟨(r.val % 8) * 8 + c.val % 8, by omega⟩
/-- The quotient of a window pixel number by 8. -/
def kq (k : Fin 64) : Fin 8 := ⟨k.val / 8, by omega⟩
/-- The remainder of a window pixel number by 8. -/
def km (k : Fin 64) : Fin 8 := ⟨k.val % 8, by omega⟩
/-- The query channel as a channel of the 256 query channels. -/
def qc (r c : Fin 256) (ch : Fin 64) : Fin 256 := ⟨(ch.val / 16) * 64 + ((r.val % 8) * 8 + c.val % 8), by omega⟩

/-! ### The six reshapes, each read at an index

A reshape keeps the row-major position; each lemma names the operand index with the same position. -/

/-- [8,4,16,32,8,32,8] → [8,64,256,256] at (b, ch, r, c). -/
theorem cast19_apply (y : S8x4x16x32x8x32x8.Idx → α) (h : S8x4x16x32x8x32x8.ShapeCasts S8x64x256x256)
    (b : Fin 8) (r c : Fin 256) (ch : Fin 64) :
    shapeCast S8x64x256x256 y h (ix4 b ch r c) = y (ix7 b (headOf ch) (lo16 ch) (q8 r) (m8 r) (q8 c) (m8 c)) :=
  shapeCast_apply y h _ _ (by
    rw [rowMajor_val_seven, Shape.rowMajor_val_four]
    show (((((b.val * 4 + ch.val / 16) * 16 + ch.val % 16) * 32 + r.val / 8) * 8 + r.val % 8) * 32 + c.val / 8) * 8 + c.val % 8
      = ((b.val * 64 + ch.val) * 256 + r.val) * 256 + c.val
    omega)

/-- [8,32,32,4,64,16] → [8,32,32,4,8,8,16] at (b, r / 8, c / 8, ch / 16, r % 8, c % 8, ch % 16). -/
theorem cast17_apply (y : S8x32x32x4x64x16.Idx → α) (h : S8x32x32x4x64x16.ShapeCasts S8x32x32x4x8x8x16)
    (b : Fin 8) (r c : Fin 256) (ch : Fin 64) :
    shapeCast S8x32x32x4x8x8x16 y h (ix7 b (q8 r) (q8 c) (headOf ch) (m8 r) (m8 c) (lo16 ch))
      = y (ix6 b (q8 r) (q8 c) (headOf ch) (wpos r c) (lo16 ch)) :=
  shapeCast_apply y h _ _ (by
    rw [rowMajor_val_seven, Shape.rowMajor_val_six]
    show ((((b.val * 32 + r.val / 8) * 32 + c.val / 8) * 4 + ch.val / 16) * 64 + ((r.val % 8) * 8 + c.val % 8)) * 16 + ch.val % 16
      = (((((b.val * 32 + r.val / 8) * 32 + c.val / 8) * 4 + ch.val / 16) * 8 + r.val % 8) * 8 + c.val % 8) * 16 + ch.val % 16
    omega)

/-- [8,32,32,4,64,8,8] → [8,32,32,4,64,64] at (b, R, C, h, p, k). -/
theorem cast9_apply (y : S8x32x32x4x64x8x8.Idx → α) (h : S8x32x32x4x64x8x8.ShapeCasts S8x32x32x4x64x64)
    (b : Fin 8) (R C : Fin 32) (hh : Fin 4) (p k : Fin 64) :
    shapeCast S8x32x32x4x64x64 y h (ix6 b R C hh p k) = y (ix7 b R C hh p (kq k) (km k)) :=
  shapeCast_apply y h _ _ (by
    rw [rowMajor_val_seven, Shape.rowMajor_val_six]
    show (((((b.val * 32 + R.val) * 32 + C.val) * 4 + hh.val) * 64 + p.val) * 8 + k.val / 8) * 8 + k.val % 8
      = ((((b.val * 32 + R.val) * 32 + C.val) * 4 + hh.val) * 64 + p.val) * 64 + k.val
    omega)

/-- [8,32,32,4,16,8,8] → [8,32,32,4,16,64] at (b, R, C, h, l, k). -/
theorem cast12_apply (y : S8x32x32x4x16x8x8.Idx → α) (h : S8x32x32x4x16x8x8.ShapeCasts S8x32x32x4x16x64)
    (b : Fin 8) (R C : Fin 32) (hh : Fin 4) (l : Fin 16) (k : Fin 64) :
    shapeCast S8x32x32x4x16x64 y h (ix6 b R C hh l k) = y (ix7 b R C hh l (kq k) (km k)) :=
  shapeCast_apply y h _ _ (by
    rw [rowMajor_val_seven, Shape.rowMajor_val_six]
    show (((((b.val * 32 + R.val) * 32 + C.val) * 4 + hh.val) * 16 + l.val) * 8 + k.val / 8) * 8 + k.val % 8
      = ((((b.val * 32 + R.val) * 32 + C.val) * 4 + hh.val) * 16 + l.val) * 64 + k.val
    omega)

/-- [8,256,256,256] → [8,8,32,8,32,4,64] at (b, k / 8, r / 8, k % 8, c / 8, ch / 16, (r % 8)·8 + c % 8). -/
theorem cast7_apply (y : S8x256x256x256.Idx → α) (h : S8x256x256x256.ShapeCasts S8x8x32x8x32x4x64)
    (b : Fin 8) (r c : Fin 256) (ch k : Fin 64) :
    shapeCast S8x8x32x8x32x4x64 y h (ix7 b (kq k) (q8 r) (km k) (q8 c) (headOf ch) (wpos r c))
      = y (ix4 b (rowOf k r) (colOf k c) (qc r c ch)) :=
  shapeCast_apply y h _ _ (by
    rw [rowMajor_val_seven, Shape.rowMajor_val_four]
    show ((b.val * 256 + ((k.val / 8) * 32 + r.val / 8)) * 256 + ((k.val % 8) * 32 + c.val / 8)) * 256
        + ((ch.val / 16) * 64 + ((r.val % 8) * 8 + c.val % 8))
      = ((((((b.val * 8 + k.val / 8) * 32 + r.val / 8) * 8 + k.val % 8) * 32 + c.val / 8) * 4 + ch.val / 16) * 64
        + ((r.val % 8) * 8 + c.val % 8))
    omega)

/-- [8,256,256,64] → [8,8,32,8,32,4,16] at (b, k / 8, r / 8, k % 8, c / 8, ch / 16, ch % 16). -/
theorem cast10_apply (y : S8x256x256x64.Idx → α) (h : S8x256x256x64.ShapeCasts S8x8x32x8x32x4x16)
    (b : Fin 8) (r c : Fin 256) (ch k : Fin 64) :
    shapeCast S8x8x32x8x32x4x16 y h (ix7 b (kq k) (q8 r) (km k) (q8 c) (headOf ch) (lo16 ch))
      = y (ix4 b (rowOf k r) (colOf k c) ch) :=
  shapeCast_apply y h _ _ (by
    rw [rowMajor_val_seven, Shape.rowMajor_val_four]
    show ((b.val * 256 + ((k.val / 8) * 32 + r.val / 8)) * 256 + ((k.val % 8) * 32 + c.val / 8)) * 64 + ch.val
      = ((((((b.val * 8 + k.val / 8) * 32 + r.val / 8) * 8 + k.val % 8) * 32 + c.val / 8) * 4 + ch.val / 16) * 16
        + ch.val % 16)
    omega)

/-! ### The pad with every padding zero is the identity -/

theorem pad0_apply {u : Shape} (y : S8x256x256x320.Idx → α) (v : u.Idx → α)
    (h : S8x256x256x320.Pads (![0, 0, 0, 0] : Fin 4 → Nat) ![0, 0, 0, 0] ![0, 0, 0, 0] S8x256x256x320)
    (hu : 0 < u.numel) (j : S8x256x256x320.Idx) :
    pad S8x256x256x320 ![0, 0, 0, 0] ![0, 0, 0, 0] ![0, 0, 0, 0] y v h hu j = y j := by
  unfold pad
  split
  next hin =>
    refine congrArg y (funext fun a => Fin.ext ?_)
    match a with
    | ⟨0, _⟩ => show ((j 0).val - 0) / (0 + 1) = (j 0).val; omega
    | ⟨1, _⟩ => show ((j 1).val - 0) / (0 + 1) = (j 1).val; omega
    | ⟨2, _⟩ => show ((j 2).val - 0) / (0 + 1) = (j 2).val; omega
    | ⟨3, _⟩ => show ((j 3).val - 0) / (0 + 1) = (j 3).val; omega
  next hnot =>
    refine absurd (fun a => ?_) hnot
    match a with
    | ⟨0, _⟩ =>
      have h0 : (j 0).val < 8 := (j 0).isLt
      show 0 ≤ (j 0).val ∧ ((j 0).val - 0) % (0 + 1) = 0 ∧ ((j 0).val - 0) / (0 + 1) < 8
      refine ⟨?_, ?_, ?_⟩ <;> omega
    | ⟨1, _⟩ =>
      have h0 : (j 1).val < 256 := (j 1).isLt
      show 0 ≤ (j 1).val ∧ ((j 1).val - 0) % (0 + 1) = 0 ∧ ((j 1).val - 0) / (0 + 1) < 256
      refine ⟨?_, ?_, ?_⟩ <;> omega
    | ⟨2, _⟩ =>
      have h0 : (j 2).val < 256 := (j 2).isLt
      show 0 ≤ (j 2).val ∧ ((j 2).val - 0) % (0 + 1) = 0 ∧ ((j 2).val - 0) / (0 + 1) < 256
      refine ⟨?_, ?_, ?_⟩ <;> omega
    | ⟨3, _⟩ =>
      have h0 : (j 3).val < 320 := (j 3).isLt
      show 0 ≤ (j 3).val ∧ ((j 3).val - 0) % (0 + 1) = 0 ∧ ((j 3).val - 0) / (0 + 1) < 320
      refine ⟨?_, ?_, ?_⟩ <;> omega

/-! ### The projection: stages 0 to 6 -/

/-- The biased product at (b, row, col, o) is the per-pixel projection. -/
theorem v3_at (x0 : (⟨S8x256x256x64, .f32⟩ : BufTy).Contents (Elt Ideal)) (x1 : (⟨S320x64, .f32⟩ : BufTy).Contents (Elt Ideal)) (x2 : (⟨S320, .f32⟩ : BufTy).Contents (Elt Ideal)) (b : Fin 8) (row col : Fin 256) (o : Fin 320) :
    val_main_v3 (F := Ideal) x0 x1 x2 (ix4 b row col o) = proj x0 x1 x2 b row col o := by
  have e0 : ∀ k : Fin 64, lidx_main_v0 (ix4 b row col o) k = ix4 b row col k := fun k => funext fun a =>
    match a with | ⟨0, _⟩ => rfl | ⟨1, _⟩ => rfl | ⟨2, _⟩ => rfl | ⟨3, _⟩ => rfl
  have e1 : ∀ k : Fin 64, ridx_main_v0 (ix4 b row col o) k = ix2 o k := fun k => funext fun a =>
    match a with | ⟨0, _⟩ => rfl | ⟨1, _⟩ => rfl
  have e2 : idx_main_v1 (idx_main_v2 (ix4 b row col o)) = ix1 o := funext fun a =>
    match a with | ⟨0, _⟩ => rfl
  rw [val_main_v3_apply, val_main_v0_apply, val_main_v2_apply, val_main_v1_apply, Ideal.addf_def, e2]
  unfold proj
  simp only [e0, e1]

/-- The pad stage is the biased product itself. -/
theorem v4_eq (x0 : (⟨S8x256x256x64, .f32⟩ : BufTy).Contents (Elt Ideal)) (x1 : (⟨S320x64, .f32⟩ : BufTy).Contents (Elt Ideal)) (x2 : (⟨S320, .f32⟩ : BufTy).Contents (Elt Ideal)) :
    val_main_v4 (F := Ideal) x0 x1 x2 = val_main_v3 (F := Ideal) x0 x1 x2 := by
  funext j
  unfold val_main_v4
  exact pad0_apply _ _ _ _ j

/-- The query slice at (b, row, col, q) is the projection at channel q. -/
theorem v5_at (x0 : (⟨S8x256x256x64, .f32⟩ : BufTy).Contents (Elt Ideal)) (x1 : (⟨S320x64, .f32⟩ : BufTy).Contents (Elt Ideal)) (x2 : (⟨S320, .f32⟩ : BufTy).Contents (Elt Ideal)) (b : Fin 8) (row col q : Fin 256) (o : Fin 320) (ho : o.val = q.val) :
    val_main_v5 (F := Ideal) x0 x1 x2 (ix4 b row col q) = proj x0 x1 x2 b row col o := by
  have e : idx_main_v5 (ix4 b row col q) = ix4 b row col o := funext fun a =>
    match a with | ⟨0, _⟩ => rfl | ⟨1, _⟩ => rfl | ⟨2, _⟩ => rfl | ⟨3, _⟩ => Fin.ext ho.symm
  rw [val_main_v5_apply, v4_eq, e, v3_at]

/-- The key slice at (b, row, col, ch) is the projection at channel 256 + ch. -/
theorem v6_at (x0 : (⟨S8x256x256x64, .f32⟩ : BufTy).Contents (Elt Ideal)) (x1 : (⟨S320x64, .f32⟩ : BufTy).Contents (Elt Ideal)) (x2 : (⟨S320, .f32⟩ : BufTy).Contents (Elt Ideal)) (b : Fin 8) (row col : Fin 256) (ch : Fin 64) :
    val_main_v6 (F := Ideal) x0 x1 x2 (ix4 b row col ch) = proj x0 x1 x2 b row col (kCh ch) := by
  have e : idx_main_v6 (ix4 b row col ch) = ix4 b row col (kCh ch) := funext fun a =>
    match a with | ⟨0, _⟩ => rfl | ⟨1, _⟩ => rfl | ⟨2, _⟩ => rfl | ⟨3, _⟩ => rfl
  rw [val_main_v6_apply, v4_eq, e, v3_at]

/-! ### The queries: stages 7 to 9 -/

theorem v7_at (x0 : (⟨S8x256x256x64, .f32⟩ : BufTy).Contents (Elt Ideal)) (x1 : (⟨S320x64, .f32⟩ : BufTy).Contents (Elt Ideal)) (x2 : (⟨S320, .f32⟩ : BufTy).Contents (Elt Ideal)) (b : Fin 8) (r c : Fin 256) (ch k : Fin 64) :
    val_main_v7 (F := Ideal) x0 x1 x2 (ix7 b (kq k) (q8 r) (km k) (q8 c) (headOf ch) (wpos r c))
      = proj x0 x1 x2 b (rowOf k r) (colOf k c) (qCh r c ch) :=
  (cast7_apply (val_main_v5 (F := Ideal) x0 x1 x2) shapeCasts_S8x256x256x256_S8x8x32x8x32x4x64 b r c ch k).trans
    (v5_at x0 x1 x2 b (rowOf k r) (colOf k c) (qc r c ch) (qCh r c ch) rfl)

theorem idx8_ix7 (a0 : Fin 8) (a1 a2 : Fin 32) (a3 : Fin 4) (a4 : Fin 64) (a5 a6 : Fin 8) :
    idx_main_v8 (ix7 a0 a1 a2 a3 a4 a5 a6) = ix7 a0 a5 a1 a6 a2 a3 a4 := funext fun a =>
  match a with | ⟨0, _⟩ => rfl | ⟨1, _⟩ => rfl | ⟨2, _⟩ => rfl | ⟨3, _⟩ => rfl | ⟨4, _⟩ => rfl | ⟨5, _⟩ => rfl | ⟨6, _⟩ => rfl

/-- The query operand of the window product at (b, r / 8, c / 8, ch / 16, (r % 8)·8 + c % 8, k). -/
theorem v9_at (x0 : (⟨S8x256x256x64, .f32⟩ : BufTy).Contents (Elt Ideal)) (x1 : (⟨S320x64, .f32⟩ : BufTy).Contents (Elt Ideal)) (x2 : (⟨S320, .f32⟩ : BufTy).Contents (Elt Ideal)) (b : Fin 8) (r c : Fin 256) (ch k : Fin 64) :
    val_main_v9 (F := Ideal) x0 x1 x2 (ix6 b (q8 r) (q8 c) (headOf ch) (wpos r c) k)
      = proj x0 x1 x2 b (rowOf k r) (colOf k c) (qCh r c ch) := by
  refine (cast9_apply (val_main_v8 (F := Ideal) x0 x1 x2) shapeCasts_S8x32x32x4x64x8x8_S8x32x32x4x64x64 b (q8 r) (q8 c) (headOf ch) (wpos r c) k).trans ?_
  rw [val_main_v8_apply, idx8_ix7, v7_at]

/-! ### The keys: stages 10 to 12 -/

theorem v10_at (x0 : (⟨S8x256x256x64, .f32⟩ : BufTy).Contents (Elt Ideal)) (x1 : (⟨S320x64, .f32⟩ : BufTy).Contents (Elt Ideal)) (x2 : (⟨S320, .f32⟩ : BufTy).Contents (Elt Ideal)) (b : Fin 8) (r c : Fin 256) (ch k : Fin 64) :
    val_main_v10 (F := Ideal) x0 x1 x2 (ix7 b (kq k) (q8 r) (km k) (q8 c) (headOf ch) (lo16 ch))
      = proj x0 x1 x2 b (rowOf k r) (colOf k c) (kCh ch) :=
  (cast10_apply (val_main_v6 (F := Ideal) x0 x1 x2) shapeCasts_S8x256x256x64_S8x8x32x8x32x4x16 b r c ch k).trans
    (v6_at x0 x1 x2 b (rowOf k r) (colOf k c) ch)

theorem idx11_ix7 (a0 : Fin 8) (a1 a2 : Fin 32) (a3 : Fin 4) (a4 : Fin 16) (a5 a6 : Fin 8) :
    idx_main_v11 (ix7 a0 a1 a2 a3 a4 a5 a6) = ix7 a0 a5 a1 a6 a2 a3 a4 := funext fun a =>
  match a with | ⟨0, _⟩ => rfl | ⟨1, _⟩ => rfl | ⟨2, _⟩ => rfl | ⟨3, _⟩ => rfl | ⟨4, _⟩ => rfl | ⟨5, _⟩ => rfl | ⟨6, _⟩ => rfl

/-- The key operand of the window product at (b, r / 8, c / 8, ch / 16, ch % 16, k). -/
theorem v12_at (x0 : (⟨S8x256x256x64, .f32⟩ : BufTy).Contents (Elt Ideal)) (x1 : (⟨S320x64, .f32⟩ : BufTy).Contents (Elt Ideal)) (x2 : (⟨S320, .f32⟩ : BufTy).Contents (Elt Ideal)) (b : Fin 8) (r c : Fin 256) (ch k : Fin 64) :
    val_main_v12 (F := Ideal) x0 x1 x2 (ix6 b (q8 r) (q8 c) (headOf ch) (lo16 ch) k)
      = proj x0 x1 x2 b (rowOf k r) (colOf k c) (kCh ch) := by
  refine (cast12_apply (val_main_v11 (F := Ideal) x0 x1 x2) shapeCasts_S8x32x32x4x16x8x8_S8x32x32x4x16x64 b (q8 r) (q8 c) (headOf ch) (lo16 ch) k).trans ?_
  rw [val_main_v11_apply, idx11_ix7, v10_at]

/-! ### The window product and the temperature: stages 13 to 16 -/

theorem v13_at (x0 : (⟨S8x256x256x64, .f32⟩ : BufTy).Contents (Elt Ideal)) (x1 : (⟨S320x64, .f32⟩ : BufTy).Contents (Elt Ideal)) (x2 : (⟨S320, .f32⟩ : BufTy).Contents (Elt Ideal)) (b : Fin 8) (r c : Fin 256) (ch : Fin 64) :
    val_main_v13 (F := Ideal) x0 x1 x2 (ix6 b (q8 r) (q8 c) (headOf ch) (wpos r c) (lo16 ch))
      = attn (proj x0 x1 x2) b r c ch := by
  rw [val_main_v13_apply]
  unfold attn
  refine Finset.sum_congr rfl fun k _ => ?_
  have el : lidx_main_v13 (ix6 b (q8 r) (q8 c) (headOf ch) (wpos r c) (lo16 ch)) k
      = ix6 b (q8 r) (q8 c) (headOf ch) (wpos r c) k := funext fun a =>
    match a with | ⟨0, _⟩ => rfl | ⟨1, _⟩ => rfl | ⟨2, _⟩ => rfl | ⟨3, _⟩ => rfl | ⟨4, _⟩ => rfl | ⟨5, _⟩ => rfl
  have er : ridx_main_v13 (ix6 b (q8 r) (q8 c) (headOf ch) (wpos r c) (lo16 ch)) k
      = ix6 b (q8 r) (q8 c) (headOf ch) (lo16 ch) k := funext fun a =>
    match a with | ⟨0, _⟩ => rfl | ⟨1, _⟩ => rfl | ⟨2, _⟩ => rfl | ⟨3, _⟩ => rfl | ⟨4, _⟩ => rfl | ⟨5, _⟩ => rfl
  rw [el, er, v9_at, v12_at]

theorem v15_at (x3 : (⟨S4, .f32⟩ : BufTy).Contents (Elt Ideal)) (b : Fin 8) (R C : Fin 32) (hh : Fin 4) (p : Fin 64) (l : Fin 16) :
    val_main_v15 (F := Ideal) x3 (ix6 b R C hh p l) = x3 (ix1 hh) := by
  have e : idx_main_v14 (idx_main_v15 (ix6 b R C hh p l)) = ix1 hh := funext fun a =>
    match a with | ⟨0, _⟩ => rfl
  rw [val_main_v15_apply, val_main_v14_apply, e]

theorem v16_at (x0 : (⟨S8x256x256x64, .f32⟩ : BufTy).Contents (Elt Ideal)) (x1 : (⟨S320x64, .f32⟩ : BufTy).Contents (Elt Ideal)) (x2 : (⟨S320, .f32⟩ : BufTy).Contents (Elt Ideal)) (x3 : (⟨S4, .f32⟩ : BufTy).Contents (Elt Ideal)) (b : Fin 8) (r c : Fin 256) (ch : Fin 64) :
    val_main_v16 (F := Ideal) x0 x1 x2 x3 (ix6 b (q8 r) (q8 c) (headOf ch) (wpos r c) (lo16 ch))
      = attn (proj x0 x1 x2) b r c ch * x3 (ix1 (headOf ch)) := by
  rw [val_main_v16_apply, Ideal.mulf_def, v13_at, v15_at]

/-! ### Back to the image layout: stages 17 to 20 -/

theorem idx18_ix7 (a0 : Fin 8) (a1 : Fin 4) (a2 : Fin 16) (a3 : Fin 32) (a4 : Fin 8) (a5 : Fin 32) (a6 : Fin 8) :
    idx_main_v18 (ix7 a0 a1 a2 a3 a4 a5 a6) = ix7 a0 a3 a5 a1 a4 a6 a2 := funext fun a =>
  match a with | ⟨0, _⟩ => rfl | ⟨1, _⟩ => rfl | ⟨2, _⟩ => rfl | ⟨3, _⟩ => rfl | ⟨4, _⟩ => rfl | ⟨5, _⟩ => rfl | ⟨6, _⟩ => rfl

theorem idx20_ix4 (b : Fin 8) (r c : Fin 256) (ch : Fin 64) :
    idx_main_v20 (ix4 b r c ch) = ix4 b ch r c := funext fun a =>
  match a with | ⟨0, _⟩ => rfl | ⟨1, _⟩ => rfl | ⟨2, _⟩ => rfl | ⟨3, _⟩ => rfl

/-- The reference's result at (b, r, c, ch). -/
theorem v20_at (x0 : (⟨S8x256x256x64, .f32⟩ : BufTy).Contents (Elt Ideal)) (x1 : (⟨S320x64, .f32⟩ : BufTy).Contents (Elt Ideal)) (x2 : (⟨S320, .f32⟩ : BufTy).Contents (Elt Ideal)) (x3 : (⟨S4, .f32⟩ : BufTy).Contents (Elt Ideal)) (b : Fin 8) (r c : Fin 256) (ch : Fin 64) :
    val_main_v20 (F := Ideal) x0 x1 x2 x3 (ix4 b r c ch) = attn (proj x0 x1 x2) b r c ch * x3 (ix1 (headOf ch)) := by
  rw [val_main_v20_apply, idx20_ix4]
  refine (cast19_apply (val_main_v18 (F := Ideal) x0 x1 x2 x3) shapeCasts_S8x4x16x32x8x32x8_S8x64x256x256 b r c ch).trans ?_
  rw [val_main_v18_apply, idx18_ix7]
  refine (cast17_apply (val_main_v16 (F := Ideal) x0 x1 x2 x3) shapeCasts_S8x32x32x4x64x16_S8x32x32x4x8x8x16 b r c ch).trans ?_
  exact v16_at x0 x1 x2 x3 b r c ch

/-- The reference program's result is the specification with the temperature applied after the window sum. -/
theorem ref_eq (x0 : (⟨S8x256x256x64, .f32⟩ : BufTy).Contents (Elt Ideal)) (x1 : (⟨S320x64, .f32⟩ : BufTy).Contents (Elt Ideal)) (x2 : (⟨S320, .f32⟩ : BufTy).Contents (Elt Ideal)) (x3 : (⟨S4, .f32⟩ : BufTy).Contents (Elt Ideal)) :
    Cert.ReferenceIdeal.Read.val_main_v20 (F := Ideal) x0 x1 x2 x3 = Cert.WindowAttn.refOut x0 x1 x2 x3 := by
  funext i
  obtain ⟨b, r, c, ch, rfl⟩ : ∃ (b : Fin 8) (r c : Fin 256) (ch : Fin 64), i = ix4 b r c ch := ⟨i 0, i 1, i 2, i 3, eq_ix4 i⟩
  exact v20_at x0 x1 x2 x3 b r c ch

end Cert.WindowAttn.Ref

end
-- ==== Proof.KernelPieces.lean ====
/-
  What the kernel body leaves in the output block after its eight trips.

  Trip k loads slab k of the input block (batch element k: entries (k, i, 0, w, ch)), computes the stored value
  from it and the staged weights and bias, and stores it into rows (k, ·, ·, ·) of the output block. The eight
  stores tile the block, and the value of each is one function of the block index: entry (b, hh, c, ch) is the
  stored value computed from slab b, at (0, hh, c, ch). So after the loop the block is that function.
-/
import proofs.«100604_j34291018891858_2_alg».proof.Proof.Gen.KernelIdeal.Frame
import Idealize.ShloMosaic.Lib.Pipeline.Value
import Idealize.ShloMosaic.Lib.ValueIdx

set_option maxRecDepth 16384

noncomputable section

namespace Cert.WindowAttn.Pieces

open Cert.KernelIdeal Cert.KernelIdeal.Gen Idealize.ShloMosaic Idealize.ShloMosaic.TcCoe Idealize.ShloMosaic.ValueIdx
open Idealize.SL.Sem

variable {F : FTy → Type} [FloatOps F]

/-- Slab b of the input block: batch element b, as the one-batch array a trip loads. -/
def slab (x0 : Vec F S8x8x1x256x64 .f32) (b : Fin 8) : Vec F S1x8x1x256x64 .f32 :=
  fun z => x0 (ix5 b (z 1) (z 2) (z 3) (z 4))

/-- The output block as one function of its index: the stored value of slab b at (0, hh, c, ch). -/
def blockOf (v0 : Vec F S64x320 .f32) (v2 : Vec F S1x320 .f32) (x0 : Vec F S8x8x1x256x64 .f32) : Vec F S8x8x256x64 .f32 :=
  fun y => k0_pay1 v0 v2 (slab x0 (y 0)) (ix4 (0 : Fin 1) (y 1) (y 2) (y 3))

theorem hz2 : (![0, 0] : Fin 2 → Nat) = fun _ => 0 := funext fun a => by fin_cases a <;> rfl

/-- Trip k's one store agrees with the block function on the rows it writes. -/
theorem trip_pieces (𝒱 : Variants) (c : Dev nD) (bd : Option 𝒱.V) (i : grid0.Coords)
    (arg1 : Memref sig .tc .vmem S8x8x1x256x64 .f32) (harg1 : arg1.IsWhole) (arg2 : Memref sig .tc .vmem S64x320 .f32)
    (harg2 : arg2.IsWhole) (arg3 : Memref sig .tc .vmem S1x320 .f32) (harg3 : arg3.IsWhole)
    (arg4 : Memref sig .tc .vmem S8x8x256x64 .f32) (harg4 : arg4.IsWhole) (v0 : Vec F S64x320 .f32) (v2 : Vec F S1x320 .f32)
    (x0 : Vec F S8x8x1x256x64 .f32) (k : Fin k0_t1_loop.trips) :
    ∀ p ∈ tripL_k0_t1 (F := F) 𝒱 c bd i arg1 harg1 arg2 harg2 arg3 harg3 arg4 harg4 v0 v2 (harg1.unread x0) k,
      ∀ x : p.1.shape.Idx, p.2 x = blockOf v0 v2 x0 (p.1.emb x) := by
  have hk : k.val < 8 := Nat.lt_of_lt_of_le k.isLt k0_t1_abs.2.1
  have e1 : ∀ a, k0_off1 k a = (![k.val, 0, 0, 0, 0] : Fin 5 → Nat) a := congrFun (k0_off1_eq k)
  have e2 : ∀ a, k0_off2 k a = (![k.val, 0, 0, 0] : Fin 4 → Nat) a := congrFun (k0_off2_eq k)
  unfold tripL_k0_t1 trip_k0_t1
  dsimp only
  intro p hp x
  rw [List.mem_singleton] at hp
  subst hp
  dsimp only at x ⊢
  unfold blockOf
  have hx : x = ix4 (0 : Fin 1)
      ((Rect.unit (s := S8x8x256x64) (k0_off2 k) S1x8x256x64.size (k0_off2_inb k)).emb x 1)
      ((Rect.unit (s := S8x8x256x64) (k0_off2 k) S1x8x256x64.size (k0_off2_inb k)).emb x 2)
      ((Rect.unit (s := S8x8x256x64) (k0_off2 k) S1x8x256x64.size (k0_off2_inb k)).emb x 3) := by
    funext a
    refine Fin.ext ?_
    match a with
    | ⟨0, _⟩ => have h0 : (x 0).val < 1 := (x 0).isLt; show (x 0).val = 0; omega
    | ⟨1, _⟩ => show (x 1).val = k0_off2 k 1 + 1 * (x 1).val; rw [e2 1]; show (x 1).val = 0 + 1 * (x 1).val; omega
    | ⟨2, _⟩ => show (x 2).val = k0_off2 k 2 + 1 * (x 2).val; rw [e2 2]; show (x 2).val = 0 + 1 * (x 2).val; omega
    | ⟨3, _⟩ => show (x 3).val = k0_off2 k 3 + 1 * (x 3).val; rw [e2 3]; show (x 3).val = 0 + 1 * (x 3).val; omega
  have hs : View.readAt (Elt F) arg1.view (Rect.unit (s := S8x8x1x256x64) (k0_off1 k) S1x8x1x256x64.size (k0_off1_inb k)).toLoadRect
      (harg1.unread x0) = slab x0 ((Rect.unit (s := S8x8x256x64) (k0_off2 k) S1x8x256x64.size (k0_off2_inb k)).emb x 0) := by
    funext z
    rw [View.readAt_apply, harg1.read_unread]
    unfold slab
    refine congrArg x0 (funext fun a => Fin.ext ?_)
    match a with
    | ⟨0, _⟩ =>
      have hz0 : (z 0).val < 1 := (z 0).isLt
      have hx0 : (x 0).val < 1 := (x 0).isLt
      show k0_off1 k 0 + 1 * (z 0).val = k0_off2 k 0 + 1 * (x 0).val
      rw [e1 0, e2 0]; show k.val + 1 * (z 0).val = k.val + 1 * (x 0).val; omega
    | ⟨1, _⟩ => show k0_off1 k 1 + 1 * (z 1).val = (z 1).val; rw [e1 1]; show 0 + 1 * (z 1).val = (z 1).val; omega
    | ⟨2, _⟩ => show k0_off1 k 2 + 1 * (z 2).val = (z 2).val; rw [e1 2]; show 0 + 1 * (z 2).val = (z 2).val; omega
    | ⟨3, _⟩ => show k0_off1 k 3 + 1 * (z 3).val = (z 3).val; rw [e1 3]; show 0 + 1 * (z 3).val = (z 3).val; omega
    | ⟨4, _⟩ => show k0_off1 k 4 + 1 * (z 4).val = (z 4).val; rw [e1 4]; show 0 + 1 * (z 4).val = (z 4).val; omega
  rw [hs]
  exact congrArg (k0_pay1 v0 v2 _) hx

/-- The stores of the first n trips all agree with the block function. -/
theorem pb_pieces (𝒱 : Variants) (c : Dev nD) (bd : Option 𝒱.V) (i : grid0.Coords)
    (arg1 : Memref sig .tc .vmem S8x8x1x256x64 .f32) (harg1 : arg1.IsWhole) (arg2 : Memref sig .tc .vmem S64x320 .f32)
    (harg2 : arg2.IsWhole) (arg3 : Memref sig .tc .vmem S1x320 .f32) (harg3 : arg3.IsWhole)
    (arg4 : Memref sig .tc .vmem S8x8x256x64 .f32) (harg4 : arg4.IsWhole) (v0 : Vec F S64x320 .f32) (v2 : Vec F S1x320 .f32)
    (x0 : Vec F S8x8x1x256x64 .f32) :
    ∀ n : Nat, n ≤ k0_t1_loop.trips →
      ∀ p ∈ pb_k0_t1 (F := F) 𝒱 c bd i arg1 harg1 arg2 harg2 arg3 harg3 arg4 harg4 v0 v2 (harg1.unread x0) n,
        ∀ x : p.1.shape.Idx, p.2 x = blockOf v0 v2 x0 (p.1.emb x)
  | 0, _ => by
    intro p hp
    rw [pb_k0_t1] at hp
    exact absurd hp List.not_mem_nil
  | n + 1, h => by
    intro p hp x
    have e := pb_k0_t1_succ (F := F) 𝒱 c bd i arg1 harg1 arg2 harg2 arg3 harg3 arg4 harg4 v0 v2 (harg1.unread x0) ⟨n, h⟩
    rw [show (⟨n, h⟩ : Fin k0_t1_loop.trips).val + 1 = n + 1 from rfl] at e
    rw [e] at hp
    rcases List.mem_append.mp hp with h1 | h2
    · exact trip_pieces 𝒱 c bd i arg1 harg1 arg2 harg2 arg3 harg3 arg4 harg4 v0 v2 x0 ⟨n, h⟩ p h1 x
    · exact pb_pieces 𝒱 c bd i arg1 harg1 arg2 harg2 arg3 harg3 arg4 harg4 v0 v2 x0 n (Nat.le_of_succ_le h) p h2 x

/-- THE BLOCK after the body: the block function of the staged weights, the staged bias and the input block. -/
theorem out_eq (c : Dev nD) (i : grid0.Coords) (arg1 : Memref sig .tc .vmem S8x8x1x256x64 .f32) (harg1 : arg1.IsWhole)
    (arg2 : Memref sig .tc .vmem S64x320 .f32) (harg2 : arg2.IsWhole) (arg3 : Memref sig .tc .vmem S1x320 .f32)
    (harg3 : arg3.IsWhole) (arg4 : Memref sig .tc .vmem S8x8x256x64 .f32) (harg4 : arg4.IsWhole)
    (x0 : Vec F S8x8x1x256x64 .f32) (x1 : Vec F S64x320 .f32) (x2 : Vec F S1x320 .f32) :
    out0_A_3 c i arg1 harg1 arg2 harg2 arg3 harg3 arg4 harg4 x0 x1 x2 = blockOf x1 x2 x0 := by
  funext y
  unfold out0_A_3
  rw [View.read_writes_junk_apply_eq_canon]
  have hc := cover0_A_3 c i arg1 harg1 arg2 harg2 arg3 harg3 arg4 harg4 x0 x1 x2 y
  unfold kernelRun0_A at hc ⊢
  dsimp only at hc ⊢
  refine (View.canon_apply_of_pieces _ _ (pb_pieces Variants.none c none i arg1 harg1 arg2 harg2 arg3 harg3 arg4 harg4 _ _ x0 _ (le_refl _)) y hc).trans ?_
  simp only [View.readAt_eq_ld, harg2.read_unread, harg3.read_unread, View.ld_unit_zero (S := S64x320) hz2,
    View.ld_unit_zero (S := S1x320) hz2]

end Cert.WindowAttn.Pieces

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.KernelBody.lean ====
/-
  What one trip of the kernel body stores, entry by entry, over the extended reals.

  One trip handles one batch element: the loaded slab v6 holds the eight image rows i·32 + h1 (i < 8) of that
  batch element, all 256 columns and 64 channels. The slab is flattened to 2048 pixels, projected to 320 channels
  by the staged weights v0 (64 × 320) and bias v2 (1 × 320): entry (i, w, o) of the projected slab is
  Σ_k v6[0,i,0,w,k] · v0[k,o] + v2[0,o] (`qkBlk`). The first 256 channels are re-laid as 128 = 32·4 batches
  (window column w1, head) of a 64 × 64 matrix (query position cq against window pixel p = (i, j), column
  j·32 + w1), the last 64 channels as 128 batches of a 16 × 64 matrix, and the batched product contracts the
  window pixel. The result is re-laid so that entry (hh, c, ch) of the stored block is the product of batch
  (c / 8, ch / 16) at query position hh·8 + c % 8 and key channel ch % 16.
-/
import proofs.«100604_j34291018891858_2_alg».proof.Proof.Gen.KernelIdeal.Skeleton
import proofs.«100604_j34291018891858_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.WindowAttn.Body

open Cert.KernelIdeal Idealize.ShloMosaic Idealize.ShloMosaic.ValueIdx

/-- Entry (i, w, o) of the projected slab: image row i of the slab, column w, channel o. -/
def qkBlk (v0 : FVec Ideal S64x320 .f32) (v2 : FVec Ideal S1x320 .f32) (v6 : FVec Ideal S1x8x1x256x64 .f32)
    (i : Fin 8) (w : Fin 256) (o : Fin 320) : EReal :=
  (∑ k : Fin 64, v6 (ix5 (0 : Fin 1) i (0 : Fin 1) w k) * v0 (ix2 k o)) + v2 (ix2 (0 : Fin 1) o)

/-- The projection's dimension numbers are those of a plain matrix product. -/
theorem plain1 : Cert.PlainDot.IsPlain (M := 2048) (K := 64) (N := 320) dot_S2048x64_S64x320_S2048x320_1_0_0_1_n_n :=
  ⟨rfl, rfl, rfl, rfl, rfl, rfl⟩

/-- The slab flattened to 2048 pixels reads the slab at (i, w). -/
theorem flat_apply (v6 : FVec Ideal S1x8x1x256x64 .f32) (h7 : S1x8x1x256x64.ShapeCasts S8x256x64)
    (h8 : S8x256x64.ShapeCasts S2048x64) (i : Fin 8) (w : Fin 256) (k : Fin 64) :
    shapeCast S2048x64 (shapeCast S8x256x64 v6 h7) h8 (ix2 (⟨i.val * 256 + w.val, by omega⟩ : Fin 2048) k)
      = v6 (ix5 (0 : Fin 1) i (0 : Fin 1) w k) := by
  refine (shapeCast_apply _ h8 _ (ix3 i w k) ?_).trans ?_
  · rw [Shape.rowMajor_val_three, Shape.rowMajor_val_two]; rfl
  refine shapeCast_apply _ h7 _ (ix5 (0 : Fin 1) i (0 : Fin 1) w k) ?_
  rw [Shape.rowMajor_val_five, Shape.rowMajor_val_three]
  show ((((0 * 8 + i.val) * 1 + 0) * 256 + w.val) * 64 + k.val) = (i.val * 256 + w.val) * 64 + k.val
  omega

/-- The bias row broadcast down the 2048 pixels reads the bias at the channel. -/
theorem bias_apply (v2 : FVec Ideal S1x320 .f32) (h3 : S1x320.ShapeCasts S1x320) (hb : S1x320.Broadcasts S2048x320)
    (row : Fin 2048) (o : Fin 320) :
    broadcastTo S2048x320 (shapeCast S1x320 v2 h3) hb (ix2 row o) = v2 (ix2 (0 : Fin 1) o) := by
  refine (broadcastTo_apply _ hb _ (ix2 (0 : Fin 1) o) (fun a => ?_)).trans ?_
  · match a with
    | ⟨0, _⟩ => rfl
    | ⟨1, _⟩ => rfl
  exact shapeCast_apply _ h3 _ _ rfl

/-- THE PROJECTED SLAB at (i, w, o). -/
theorem slab_apply (v0 : FVec Ideal S64x320 .f32) (v2 : FVec Ideal S1x320 .f32) (v6 : FVec Ideal S1x8x1x256x64 .f32)
    (h7 : S1x8x1x256x64.ShapeCasts S8x256x64) (h8 : S8x256x64.ShapeCasts S2048x64) (h1 : S64x320.ShapeCasts S64x320)
    (h3 : S1x320.ShapeCasts S1x320) (hb : S1x320.Broadcasts S2048x320) (h12 : S2048x320.ShapeCasts S8x256x320)
    (i : Fin 8) (w : Fin 256) (o : Fin 320) :
    shapeCast S8x256x320
        (addf (matmul dot_S2048x64_S64x320_S2048x320_1_0_0_1_n_n (some .fp32) (shapeCast S2048x64 (shapeCast S8x256x64 v6 h7) h8)
            (shapeCast S64x320 v0 h1) (constant (F := Ideal) S2048x320 .f32 0x00000000#32))
          (broadcastTo S2048x320 (shapeCast S1x320 v2 h3) hb)) h12 (ix3 i w o)
      = qkBlk v0 v2 v6 i w o := by
  refine (shapeCast_apply _ h12 _ (ix2 (⟨i.val * 256 + w.val, by omega⟩ : Fin 2048) o) ?_).trans ?_
  · rw [Shape.rowMajor_val_two, Shape.rowMajor_val_three]; rfl
  rw [addf_apply, Cert.PlainDot.matmul_zero_apply plain1, bias_apply]
  unfold qkBlk
  refine congrArg (· + v2 (ix2 (0 : Fin 1) o)) (Finset.sum_congr rfl fun k _ => ?_)
  rw [flat_apply, shapeCast_apply v0 h1 (ix2 k o) (ix2 k o) rfl]

end Cert.WindowAttn.Body

end
-- ==== Proof.KernelRelay.lean ====
/-
  The re-layouts around the batched product of the kernel body, and the batched product itself, read at one entry.

  Queries: the first 256 channels of the projected slab [8, 256, 320], viewed as [8, 8, 32, 4, 64]
  (slab row i, column block j, window column w1, head, query position), are permuted to [32, 4, 64, 8, 8] and
  flattened to [128, 64, 64]: batch bb = w1·4 + head, query position cq, window pixel p = i·8 + j. So entry
  (bb, cq, p) is the slab at row p / 8, column (p % 8)·32 + bb / 4, channel (bb % 4)·64 + cq.
  Keys: the last 64 channels likewise, [8, 8, 32, 4, 16] to [32, 4, 16, 8, 8] to [128, 16, 64]: entry (bb, d, p)
  is the slab at row p / 8, column (p % 8)·32 + bb / 4, channel 256 + (bb % 4)·16 + d.
  The batched product contracts p: entry (bb, cq, d) is Σ_p Q[bb, cq, p] · K[bb, d, p].
  Output: [128, 64, 16] viewed as [32, 4, 8, 8, 16] (w1, head, hh, ww, d) is permuted to [8, 32, 8, 4, 16] and
  flattened to [8, 256, 64]: entry (hh, c, ch) is the product at batch (c / 8)·4 + ch / 16, query position
  hh·8 + c % 8, key channel ch % 16.
-/
import proofs.«100604_j34291018891858_2_alg».proof.Proof.Gen.KernelIdeal
import Idealize.ShloMosaic.Lib.Pipeline.Value
import Idealize.ShloMosaic.Lib.ValueIdx
import Idealize.ShloMosaic.PureOps.Ideal.Laws

noncomputable section

open scoped BigOperators

namespace Cert.WindowAttn.Body

open Cert.KernelIdeal Idealize.ShloMosaic Idealize.ShloMosaic.ValueIdx

/-- The query operand of the batched product at (bb, cq, p) is the projected slab at the window pixel's row and
    column and the head's query channel. -/
theorem q_apply (y : FVec Ideal S8x256x320 .f32) (hs : S8x256x320.Slices ![0, 0, 0] S8x256x256)
    (h15 : S8x256x256.ShapeCasts S8x8x32x4x64) (h16 : S8x8x32x4x64.Transposes [2, 3, 4, 0, 1] S32x4x64x8x8)
    (h17 : S32x4x64x8x8.ShapeCasts S128x64x64) (bb : Fin 128) (cq p : Fin 64) (i : Fin 8) (w : Fin 256) (o : Fin 320)
    (hi : i.val = p.val / 8) (hw : w.val = (p.val % 8) * 32 + bb.val / 4) (ho : o.val = (bb.val % 4) * 64 + cq.val) :
    shapeCast S128x64x64 (transpose S32x4x64x8x8 [2, 3, 4, 0, 1]
        (shapeCast S8x8x32x4x64 (extractStridedSlice S8x256x256 ![0, 0, 0] y hs) h15) h16) h17 (ix3 bb cq p)
      = y (ix3 i w o) := by
  refine (shapeCast_apply _ h17 _ (ix5 (⟨bb.val / 4, by omega⟩ : Fin 32) (⟨bb.val % 4, by omega⟩ : Fin 4) cq
    (⟨p.val / 8, by omega⟩ : Fin 8) (⟨p.val % 8, by omega⟩ : Fin 8)) ?_).trans ?_
  · rw [Shape.rowMajor_val_five, Shape.rowMajor_val_three]
    show ((((bb.val / 4) * 4 + bb.val % 4) * 64 + cq.val) * 8 + p.val / 8) * 8 + p.val % 8 = (bb.val * 64 + cq.val) * 64 + p.val
    omega
  refine (transpose_apply _ _ h16 _ (ix5 (⟨p.val / 8, by omega⟩ : Fin 8) (⟨p.val % 8, by omega⟩ : Fin 8)
    (⟨bb.val / 4, by omega⟩ : Fin 32) (⟨bb.val % 4, by omega⟩ : Fin 4) cq) (fun b => ?_)).trans ?_
  · match b with
    | ⟨0, _⟩ => rfl
    | ⟨1, _⟩ => rfl
    | ⟨2, _⟩ => rfl
    | ⟨3, _⟩ => rfl
    | ⟨4, _⟩ => rfl
  refine (shapeCast_apply _ h15 _ (ix3 i w (⟨o.val, by omega⟩ : Fin 256)) ?_).trans ?_
  · rw [Shape.rowMajor_val_three, Shape.rowMajor_val_five]
    show (i.val * 256 + w.val) * 256 + o.val = ((((p.val / 8) * 8 + p.val % 8) * 32 + bb.val / 4) * 4 + bb.val % 4) * 64 + cq.val
    omega
  refine extractStridedSlice_apply _ y hs _ (ix3 i w o) (fun a => ?_)
  match a with
  | ⟨0, _⟩ => show i.val = 0 + i.val; omega
  | ⟨1, _⟩ => show w.val = 0 + w.val; omega
  | ⟨2, _⟩ => show o.val = 0 + o.val; omega

/-- The key operand of the batched product at (bb, d, p) is the projected slab at the window pixel's row and column
    and the head's key channel. -/
theorem k_apply (y : FVec Ideal S8x256x320 .f32) (hs : S8x256x320.Slices ![0, 0, 256] S8x256x64)
    (h18 : S8x256x64.ShapeCasts S8x8x32x4x16) (h19 : S8x8x32x4x16.Transposes [2, 3, 4, 0, 1] S32x4x16x8x8)
    (h20 : S32x4x16x8x8.ShapeCasts S128x16x64) (bb : Fin 128) (d : Fin 16) (p : Fin 64) (i : Fin 8) (w : Fin 256)
    (o : Fin 320) (hi : i.val = p.val / 8) (hw : w.val = (p.val % 8) * 32 + bb.val / 4)
    (ho : o.val = 256 + ((bb.val % 4) * 16 + d.val)) :
    shapeCast S128x16x64 (transpose S32x4x16x8x8 [2, 3, 4, 0, 1]
        (shapeCast S8x8x32x4x16 (extractStridedSlice S8x256x64 ![0, 0, 256] y hs) h18) h19) h20 (ix3 bb d p)
      = y (ix3 i w o) := by
  refine (shapeCast_apply _ h20 _ (ix5 (⟨bb.val / 4, by omega⟩ : Fin 32) (⟨bb.val % 4, by omega⟩ : Fin 4) d
    (⟨p.val / 8, by omega⟩ : Fin 8) (⟨p.val % 8, by omega⟩ : Fin 8)) ?_).trans ?_
  · rw [Shape.rowMajor_val_five, Shape.rowMajor_val_three]
    show ((((bb.val / 4) * 4 + bb.val % 4) * 16 + d.val) * 8 + p.val / 8) * 8 + p.val % 8 = (bb.val * 16 + d.val) * 64 + p.val
    omega
  refine (transpose_apply _ _ h19 _ (ix5 (⟨p.val / 8, by omega⟩ : Fin 8) (⟨p.val % 8, by omega⟩ : Fin 8)
    (⟨bb.val / 4, by omega⟩ : Fin 32) (⟨bb.val % 4, by omega⟩ : Fin 4) d) (fun b => ?_)).trans ?_
  · match b with
    | ⟨0, _⟩ => rfl
    | ⟨1, _⟩ => rfl
    | ⟨2, _⟩ => rfl
    | ⟨3, _⟩ => rfl
    | ⟨4, _⟩ => rfl
  refine (shapeCast_apply _ h18 _ (ix3 i w (⟨(bb.val % 4) * 16 + d.val, by omega⟩ : Fin 64)) ?_).trans ?_
  · rw [Shape.rowMajor_val_three, Shape.rowMajor_val_five]
    show (i.val * 256 + w.val) * 64 + ((bb.val % 4) * 16 + d.val) = ((((p.val / 8) * 8 + p.val % 8) * 32 + bb.val / 4) * 4 + bb.val % 4) * 16 + d.val
    omega
  refine extractStridedSlice_apply _ y hs _ (ix3 i w o) (fun a => ?_)
  match a with
  | ⟨0, _⟩ => show i.val = 0 + i.val; omega
  | ⟨1, _⟩ => show w.val = 0 + w.val; omega
  | ⟨2, _⟩ => show o.val = 256 + ((bb.val % 4) * 16 + d.val); omega

/-- The stored block at (0, hh, c, ch) is the batched product at the window column's and head's batch, the query
    position inside the window, and the key channel inside the head. -/
theorem out_apply (z : FVec Ideal S128x64x16 .f32) (h22 : S128x64x16.ShapeCasts S32x4x8x8x16)
    (h23 : S32x4x8x8x16.Transposes [2, 0, 3, 1, 4] S8x32x8x4x16) (h24 : S8x32x8x4x16.ShapeCasts S8x256x64)
    (h28 : S8x256x64.ShapeCasts S1x8x256x64) (hh : Fin 8) (c : Fin 256) (ch : Fin 64) (bb : Fin 128) (cq : Fin 64)
    (d : Fin 16) (hbb : bb.val = (c.val / 8) * 4 + ch.val / 16) (hcq : cq.val = hh.val * 8 + c.val % 8)
    (hd : d.val = ch.val % 16) :
    shapeCast S1x8x256x64 (shapeCast S8x256x64 (transpose S8x32x8x4x16 [2, 0, 3, 1, 4]
        (shapeCast S32x4x8x8x16 z h22) h23) h24) h28 (ix4 (0 : Fin 1) hh c ch)
      = z (ix3 bb cq d) := by
  refine (shapeCast_apply _ h28 _ (ix3 hh c ch) ?_).trans ?_
  · rw [Shape.rowMajor_val_three, Shape.rowMajor_val_four]
    show (hh.val * 256 + c.val) * 64 + ch.val = ((0 * 8 + hh.val) * 256 + c.val) * 64 + ch.val
    omega
  refine (shapeCast_apply _ h24 _ (ix5 hh (⟨c.val / 8, by omega⟩ : Fin 32) (⟨c.val % 8, by omega⟩ : Fin 8)
    (⟨ch.val / 16, by omega⟩ : Fin 4) (⟨ch.val % 16, by omega⟩ : Fin 16)) ?_).trans ?_
  · rw [Shape.rowMajor_val_five, Shape.rowMajor_val_three]
    show (((hh.val * 32 + c.val / 8) * 8 + c.val % 8) * 4 + ch.val / 16) * 16 + ch.val % 16 = (hh.val * 256 + c.val) * 64 + ch.val
    omega
  refine (transpose_apply _ _ h23 _ (ix5 (⟨c.val / 8, by omega⟩ : Fin 32) (⟨ch.val / 16, by omega⟩ : Fin 4) hh
    (⟨c.val % 8, by omega⟩ : Fin 8) (⟨ch.val % 16, by omega⟩ : Fin 16)) (fun b => ?_)).trans ?_
  · match b with
    | ⟨0, _⟩ => rfl
    | ⟨1, _⟩ => rfl
    | ⟨2, _⟩ => rfl
    | ⟨3, _⟩ => rfl
    | ⟨4, _⟩ => rfl
  refine shapeCast_apply _ h22 _ (ix3 bb cq d) ?_
  rw [Shape.rowMajor_val_three, Shape.rowMajor_val_five]
  show (bb.val * 64 + cq.val) * 16 + d.val = ((((c.val / 8) * 4 + ch.val / 16) * 8 + hh.val) * 8 + c.val % 8) * 16 + ch.val % 16
  omega

/-! ## The batched product -/

theorem bl0 (j : S128x64x16.Idx) (q : dot_S128x64x64_S128x16x64_S128x64x16_2_2_1_1_0_0.contr.Idx) :
    (dot_S128x64x64_S128x16x64_S128x64x16_2_2_1_1_0_0.lhsIdx j q 0).val = (j 0).val := by
  unfold DotDims.lhsIdx
  rw [dif_pos (show (0 : Fin S128x64x64.rank) ∈ dot_S128x64x64_S128x16x64_S128x64x16_2_2_1_1_0_0.lhsBatch by decide)]
  rfl
theorem bl1 (j : S128x64x16.Idx) (q : dot_S128x64x64_S128x16x64_S128x64x16_2_2_1_1_0_0.contr.Idx) :
    (dot_S128x64x64_S128x16x64_S128x64x16_2_2_1_1_0_0.lhsIdx j q 1).val = (j 1).val := by
  unfold DotDims.lhsIdx
  rw [dif_neg (show ¬(1 : Fin S128x64x64.rank) ∈ dot_S128x64x64_S128x16x64_S128x64x16_2_2_1_1_0_0.lhsBatch by decide),
    dif_pos (show (1 : Fin S128x64x64.rank) ∈ dot_S128x64x64_S128x16x64_S128x64x16_2_2_1_1_0_0.lhsNonContracting by decide)]
  rfl
theorem bl2 (j : S128x64x16.Idx) (q : dot_S128x64x64_S128x16x64_S128x64x16_2_2_1_1_0_0.contr.Idx) :
    (dot_S128x64x64_S128x16x64_S128x64x16_2_2_1_1_0_0.lhsIdx j q 2).val = (q ⟨0, by decide⟩).val :=
  dot_S128x64x64_S128x16x64_S128x64x16_2_2_1_1_0_0.lhsIdx_val_of_single rfl j q
theorem br0 (j : S128x64x16.Idx) (q : dot_S128x64x64_S128x16x64_S128x64x16_2_2_1_1_0_0.contr.Idx) :
    (dot_S128x64x64_S128x16x64_S128x64x16_2_2_1_1_0_0.rhsIdx j q 0).val = (j 0).val := by
  unfold DotDims.rhsIdx
  rw [dif_pos (show (0 : Fin S128x16x64.rank) ∈ dot_S128x64x64_S128x16x64_S128x64x16_2_2_1_1_0_0.rhsBatch by decide)]
  rfl
theorem br1 (j : S128x64x16.Idx) (q : dot_S128x64x64_S128x16x64_S128x64x16_2_2_1_1_0_0.contr.Idx) :
    (dot_S128x64x64_S128x16x64_S128x64x16_2_2_1_1_0_0.rhsIdx j q 1).val = (j 2).val := by
  unfold DotDims.rhsIdx
  rw [dif_neg (show ¬(1 : Fin S128x16x64.rank) ∈ dot_S128x64x64_S128x16x64_S128x64x16_2_2_1_1_0_0.rhsBatch by decide),
    dif_pos (show (1 : Fin S128x16x64.rank) ∈ dot_S128x64x64_S128x16x64_S128x64x16_2_2_1_1_0_0.rhsNonContracting by decide)]
  rfl
theorem br2 (j : S128x64x16.Idx) (q : dot_S128x64x64_S128x16x64_S128x64x16_2_2_1_1_0_0.contr.Idx) :
    (dot_S128x64x64_S128x16x64_S128x64x16_2_2_1_1_0_0.rhsIdx j q 2).val = (q ⟨0, by decide⟩).val :=
  dot_S128x64x64_S128x16x64_S128x64x16_2_2_1_1_0_0.rhsIdx_val_of_single rfl j q

/-- The batched product into a zero accumulator at (bb, cq, d): the sum over the window pixel p of the query
    operand at (bb, cq, p) times the key operand at (bb, d, p). -/
theorem bmm_apply (l : FVec Ideal S128x64x64 .f32) (r : FVec Ideal S128x16x64 .f32) (bb : Fin 128) (cq : Fin 64)
    (d : Fin 16) :
    matmul dot_S128x64x64_S128x16x64_S128x64x16_2_2_1_1_0_0 (some .fp32) l r
        (constant (F := Ideal) S128x64x16 .f32 0x00000000#32) (ix3 bb cq d)
      = ∑ p : Fin 64, l (ix3 bb cq p) * r (ix3 bb d p) := by
  refine (Ideal.matmul_constant_zero_apply dot_S128x64x64_S128x16x64_S128x64x16_2_2_1_1_0_0 (some .fp32) l r (ix3 bb cq d)).trans ?_
  rw [← Equiv.sum_comp (ValueIdx.contrEquiv1 dot_S128x64x64_S128x16x64_S128x64x16_2_2_1_1_0_0 64 rfl rfl).symm]
  refine Finset.sum_congr rfl fun p _ => ?_
  have hk := ValueIdx.contrEquiv1_symm_val dot_S128x64x64_S128x16x64_S128x64x16_2_2_1_1_0_0 64 rfl rfl p
  have el : dot_S128x64x64_S128x16x64_S128x64x16_2_2_1_1_0_0.lhsIdx (ix3 bb cq d)
      ((ValueIdx.contrEquiv1 dot_S128x64x64_S128x16x64_S128x64x16_2_2_1_1_0_0 64 rfl rfl).symm p) = ix3 bb cq p :=
    funext fun a => Fin.ext (by
      match a with
      | ⟨0, _⟩ => exact bl0 _ _
      | ⟨1, _⟩ => exact bl1 _ _
      | ⟨2, _⟩ => exact (bl2 _ _).trans hk)
  have er : dot_S128x64x64_S128x16x64_S128x64x16_2_2_1_1_0_0.rhsIdx (ix3 bb cq d)
      ((ValueIdx.contrEquiv1 dot_S128x64x64_S128x16x64_S128x64x16_2_2_1_1_0_0 64 rfl rfl).symm p) = ix3 bb d p :=
    funext fun a => Fin.ext (by
      match a with
      | ⟨0, _⟩ => exact br0 _ _
      | ⟨1, _⟩ => exact br1 _ _
      | ⟨2, _⟩ => exact (br2 _ _).trans hk)
  rw [el, er]

end Cert.WindowAttn.Body

end
-- ==== Proof.KernelPay.lean ====
/-
  The value one trip of the kernel body stores, at one entry, in terms of the projected slab.

  Entry (0, hh, c, ch) of the stored block is the sum over the 64 pixels p of the strided window of
  column block c / 8 — slab row p / 8, column (p % 8)·32 + c / 8 — of the projected query channel
  (ch / 16)·64 + hh·8 + c % 8 times the projected key channel 256 + ch.
-/
import proofs.«100604_j34291018891858_2_alg».proof.Proof.KernelBody
import proofs.«100604_j34291018891858_2_alg».proof.Proof.KernelRelay

noncomputable section

open scoped BigOperators

namespace Cert.WindowAttn.Body

open Cert.KernelIdeal Idealize.ShloMosaic Idealize.ShloMosaic.ValueIdx

/-- The slab row of window pixel p. -/
def pRow (p : Fin 64) : Fin 8 := ⟨p.val / 8, by omega⟩
/-- The slab column of window pixel p in the window of output column c. -/
def pCol (p : Fin 64) (c : Fin 256) : Fin 256 := ⟨(p.val % 8) * 32 + c.val / 8, by omega⟩
/-- The query channel of block entry (hh, c, ch). -/
def qChan (hh : Fin 8) (c : Fin 256) (ch : Fin 64) : Fin 320 := ⟨(ch.val / 16) * 64 + (hh.val * 8 + c.val % 8), by omega⟩
/-- The key channel of output channel ch. -/
def kChan (ch : Fin 64) : Fin 320 := ⟨256 + ch.val, by omega⟩

/-- THE STORED VALUE at (0, hh, c, ch). -/
theorem pay_apply (v0 : FVec Ideal S64x320 .f32) (v2 : FVec Ideal S1x320 .f32) (v6 : FVec Ideal S1x8x1x256x64 .f32)
    (hh : Fin 8) (c : Fin 256) (ch : Fin 64) :
    Cert.KernelIdeal.Gen.k0_pay1 (F := Ideal) v0 v2 v6 (ix4 (0 : Fin 1) hh c ch)
      = ∑ p : Fin 64, qkBlk v0 v2 v6 (pRow p) (pCol p c) (qChan hh c ch) * qkBlk v0 v2 v6 (pRow p) (pCol p c) (kChan ch) := by
  unfold Cert.KernelIdeal.Gen.k0_pay1
  dsimp only
  refine (out_apply _ _ _ _ _ hh c ch (⟨(c.val / 8) * 4 + ch.val / 16, by omega⟩ : Fin 128)
    (⟨hh.val * 8 + c.val % 8, by omega⟩ : Fin 64) (⟨ch.val % 16, by omega⟩ : Fin 16) rfl rfl rfl).trans ?_
  refine (bmm_apply _ _ _ _ _).trans ?_
  refine Finset.sum_congr rfl fun p _ => ?_
  refine congrArg₂ (· * ·) ?_ ?_
  · exact (q_apply _ _ _ _ _ _ _ p (pRow p) (pCol p c) (qChan hh c ch) rfl
      (by unfold pCol; dsimp only; omega) (by unfold qChan; dsimp only; omega)).trans
      (slab_apply v0 v2 v6 _ _ _ _ _ _ _ _ _)
  · exact (k_apply _ _ _ _ _ _ _ p (pRow p) (pCol p c) (kChan ch) rfl
      (by unfold pCol; dsimp only; omega) (by unfold kChan; dsimp only; omega)).trans
      (slab_apply v0 v2 v6 _ _ _ _ _ _ _ _ _)

end Cert.WindowAttn.Body

end
-- ==== Proof.KernelHost.lean ====
/-
  What the host operations before the region leave in the three arrays the region stages, entry by entry.

  The weights are multiplied, row by row, by a vector of 320 scales and transposed; the bias is multiplied by the same
  vector and given a leading unit axis; the image has its row axis split as 8 × 32. The vector of scales is the
  concatenation of 256 ones with the four temperatures each repeated 16 times, so at channel o it is one when
  o < 256 and the temperature of head (o - 256) / 16 otherwise: the folded scale of the specification.
-/
import proofs.«100604_j34291018891858_2_alg».proof.Proof.Gen.KernelIdeal.Frame
import proofs.«100604_j34291018891858_2_alg».proof.Proof.Spec
import Idealize.ShloMosaic.Lib.Pipeline.Value
import Idealize.ShloMosaic.Lib.ValueIdx
import Idealize.ShloMosaic.Lib.IdealHost
import Idealize.ShloMosaic.Lib.StableHlo.Run
import Idealize.ShloMosaic.Lib.Tactic
import Idealize.ShloMosaic.PureOps.Ideal

set_option maxRecDepth 16384

noncomputable section

namespace Cert.WindowAttn.Host

open Cert.KernelIdeal Cert.KernelIdeal.Gen Idealize.ShloMosaic Idealize.ShloMosaic.TcCoe
  Idealize.ShloMosaic.ValueIdx Idealize.SL.Sem

/-! ## The vector of folded scales -/

/-- The concatenation of 256 ones with the four temperatures each repeated 16 times, read at channel o, is the
    folded scale of channel o: position o < 256 falls in the first piece, which is the constant one; position
    o ≥ 256 falls in the second piece at o - 256, whose row-major position in the 4 × 16 array is
    ((o - 256) / 16, (o - 256) % 16), and the broadcast along the second axis reads temperature (o - 256) / 16. -/
theorem scaleVec_apply (t : FVec Ideal S4 .f32)
    (h0 : S4.BroadcastsInDim S4x16 (![0] : Fin 1 → Fin S4x16.rank)) (h1 : S4x16.ShapeCasts S64)
    (h2 : S_.BroadcastsInDim S256 (![] : Fin 0 → Fin S256.rank))
    (hc : Shape.Concatenates [S256, S64] S320 0) (o : Fin 320) :
    concatenate S320 0
        [⟨S256, broadcastInDim S256 ![] h2 (constant (F := Ideal) S_ .f32 0x3F800000#32)⟩,
         ⟨S64, shapeCast S64 (broadcastInDim S4x16 ![0] h0 t) h1⟩] hc (ix1 o)
      = Cert.WindowAttn.scale t o := by
  unfold Cert.WindowAttn.scale
  by_cases ho : o.val < 256
  · rw [if_pos ho]
    refine (concatenate_pair_apply_left (t := S320) (s₁ := S256) (s₂ := S64) (0 : Fin 1) _ _ hc (ix1 o) rfl
      (ix1 (⟨o.val, ho⟩ : Fin 256)) (by
        intro b
        match b with
        | ⟨0, _⟩ => rfl)).trans ?_
    refine (broadcastInDim_scalar_apply h2 _ _).trans ?_
    rw [constant_apply]
    exact Ideal.ofBits_one_f32
  · rw [if_neg ho]
    have hq : (o.val - 256) / 16 < 4 := by have := o.isLt; omega
    have hr : (o.val - 256) % 16 < 16 := Nat.mod_lt _ (by decide)
    have ho' : o.val - 256 < 64 := by have := o.isLt; omega
    refine (concatenate_pair_apply_right (t := S320) (s₁ := S256) (s₂ := S64) (0 : Fin 1) _ _ hc (ix1 o) rfl rfl
      (ix1 (⟨o.val - 256, ho'⟩ : Fin 64)) (by
        intro b hb
        match b with
        | ⟨0, _⟩ => exact absurd rfl hb) (by
        show o.val - 256 + 256 = o.val; omega)).trans ?_
    refine (shapeCast_apply _ h1 (ix1 (⟨o.val - 256, ho'⟩ : Fin 64))
      (ix2 (⟨(o.val - 256) / 16, hq⟩ : Fin 4) (⟨(o.val - 256) % 16, hr⟩ : Fin 16)) (by
        rw [Shape.rowMajor_val_two, Shape.rowMajor_val_one]
        show (o.val - 256) / 16 * 16 + (o.val - 256) % 16 = o.val - 256
        omega)).trans ?_
    exact broadcastInDim_apply ![0] h0 t _ (ix1 (⟨(o.val - 256) / 16, hq⟩ : Fin 4)) (by
      intro a
      match a with
      | ⟨0, _⟩ =>
        show (o.val - 256) / 16 = if (4 : ℕ) = 1 then 0 else (o.val - 256) / 16
        exact (if_neg (by decide)).symm)

/-! ## The three staged arrays over arbitrary operands -/

/-- The weights times a vector broadcast along the rows, transposed, read at (k, o): weight (o, k) times entry o
    of the vector. -/
theorem scaledWeights_apply (w : FVec Ideal S320x64 .f32) (sv : FVec Ideal S320 .f32)
    (h4 : S320.BroadcastsInDim S320x1 (![0] : Fin 1 → Fin S320x1.rank))
    (h5 : S320x1.BroadcastsInDim S320x64 (![0, 1] : Fin 2 → Fin S320x64.rank))
    (h8 : S320x64.Transposes [1, 0] S64x320) (k : Fin 64) (o : Fin 320) :
    transpose S64x320 [1, 0] (mulf w (broadcastInDim S320x64 ![0, 1] h5 (broadcastInDim S320x1 ![0] h4 sv))) h8 (ix2 k o)
      = w (ix2 o k) * sv (ix1 o) := by
  refine (transpose_apply [1, 0] _ h8 (ix2 k o) (ix2 o k) (fun b => match b with | ⟨0, _⟩ => rfl | ⟨1, _⟩ => rfl)).trans ?_
  rw [mulf_apply]
  congr 1
  refine (broadcastInDim_apply ![0, 1] h5 _ (ix2 o k) (ix2 o (0 : Fin 1)) (by
    intro a
    match a with
    | ⟨0, _⟩ =>
      show o.val = if (320 : ℕ) = 1 then 0 else o.val
      exact (if_neg (by decide)).symm
    | ⟨1, _⟩ =>
      show (0 : ℕ) = if (1 : ℕ) = 1 then 0 else k.val
      exact (if_pos rfl).symm)).trans ?_
  exact broadcastInDim_apply ![0] h4 sv (ix2 o (0 : Fin 1)) (ix1 o) (by
    intro a
    match a with
    | ⟨0, _⟩ =>
      show o.val = if (320 : ℕ) = 1 then 0 else o.val
      exact (if_neg (by decide)).symm)

/-- The bias times a vector, given a leading unit axis, read at (0, o): bias o times entry o of the vector. -/
theorem scaledBias_apply (bv sv : FVec Ideal S320 .f32) (h9 : S320.ShapeCasts S1x320) (o : Fin 320) :
    shapeCast S1x320 (mulf bv sv) h9 (ix2 (0 : Fin 1) o) = bv (ix1 o) * sv (ix1 o) := by
  refine (shapeCast_apply _ h9 (ix2 (0 : Fin 1) o) (ix1 o) (by
    rw [Shape.rowMajor_val_two, Shape.rowMajor_val_one]
    show o.val = 0 * 320 + o.val
    omega)).trans ?_
  rw [mulf_apply]

/-- The image with its row axis split as 8 × 32, read at (b, i, h, w, k): the image at row i · 32 + h. -/
theorem splitRows_apply (xv : FVec Ideal S8x256x256x64 .f32) (h10 : S8x256x256x64.ShapeCasts S8x8x32x256x64)
    (b : Fin 8) (i : Fin 8) (h1 : Fin 32) (w : Fin 256) (k : Fin 64) :
    shapeCast S8x8x32x256x64 xv h10 (ix5 b i h1 w k)
      = xv (ix4 b (⟨i.val * 32 + h1.val, by omega⟩ : Fin 256) w k) :=
  shapeCast_apply xv h10 (ix5 b i h1 w k) (ix4 b (⟨i.val * 32 + h1.val, by omega⟩ : Fin 256) w k) (by
    rw [Shape.rowMajor_val_four, Shape.rowMajor_val_five]
    show ((b.val * 256 + (i.val * 32 + h1.val)) * 256 + w.val) * 64 + k.val
      = (((b.val * 8 + i.val) * 32 + h1.val) * 256 + w.val) * 64 + k.val
    omega)

/-! ## The arrays the region finds -/

section
variable (m : (ℓ : Loc nD τ sig) → Buf (Elt Ideal) ℓ) (c : Dev nD)

/-- The image, the weights, the bias and the temperatures as launched on core c. -/
abbrev A0 : Cert.WindowAttn.XArr := m ((c : Thread nD τ).loc main_arg0)
abbrev A1 : Cert.WindowAttn.WArr := m ((c : Thread nD τ).loc main_arg1)
abbrev A2 : Cert.WindowAttn.BArr := m ((c : Thread nD τ).loc main_arg2)
abbrev A3 : Cert.WindowAttn.TArr := m ((c : Thread nD τ).loc main_arg3)

/-- The vector of folded scales the host operations build from the launched temperatures. -/
abbrev scaleVec : FVec Ideal S320 .f32 :=
  concatenate S320 0
    [⟨S256, broadcastInDim S256 ![] bcast_S_S256 (constant (F := Ideal) S_ .f32 0x3F800000#32)⟩,
     ⟨S64, shapeCast S64 (broadcastInDim S4x16 ![0] bcast_S4_S4x16_0 (A3 m c)) shapeCasts_S4x16_S64⟩]
    concatenates_S256_S64_S320_d0

/-- The staged weights are the launched weights times the folded scales along the rows, transposed. -/
theorem V_main_v8 : (V m c main_v8 : S64x320.Idx → EReal)
    = transpose S64x320 [1, 0]
        (mulf (A1 m c) (broadcastInDim S320x64 ![0, 1] bcast_S320x1_S320x64_0_1
          (broadcastInDim S320x1 ![0] bcast_S320_S320x1_0 (scaleVec m c))))
        transposes_S320x64_S64x320_1_0 := by
  dsimp only [Gen.V, Gen.hostOps0]; after_results; rfl

/-- The staged bias is the launched bias times the folded scales, with a leading unit axis. -/
theorem V_main_v9 : (V m c main_v9 : S1x320.Idx → EReal)
    = shapeCast S1x320 (mulf (A2 m c) (scaleVec m c)) shapeCasts_S320_S1x320 := by
  dsimp only [Gen.V, Gen.hostOps0]; after_results; rfl

/-- The staged image is the launched image with its row axis split as 8 × 32. -/
theorem V_main_v10 : (V m c main_v10 : S8x8x32x256x64.Idx → EReal)
    = shapeCast S8x8x32x256x64 (A0 m c) shapeCasts_S8x256x256x64_S8x8x32x256x64 := by
  dsimp only [Gen.V, Gen.hostOps0]; after_results; rfl

/-- Staged weight (k, o) is launched weight (o, k) times the folded scale of channel o. -/
theorem v8_apply (k : Fin 64) (o : Fin 320) :
    (V m c main_v8 : S64x320.Idx → EReal) (ix2 k o) = A1 m c (ix2 o k) * Cert.WindowAttn.scale (A3 m c) o := by
  rw [V_main_v8]
  refine (scaledWeights_apply (A1 m c) (scaleVec m c) _ _ _ k o).trans ?_
  exact congrArg (fun s : EReal => A1 m c (ix2 o k) * s) (scaleVec_apply (A3 m c) _ _ _ _ o)

/-- Staged bias (0, o) is launched bias o times the folded scale of channel o. -/
theorem v9_apply (o : Fin 320) :
    (V m c main_v9 : S1x320.Idx → EReal) (ix2 (0 : Fin 1) o) = A2 m c (ix1 o) * Cert.WindowAttn.scale (A3 m c) o := by
  rw [V_main_v9]
  refine (scaledBias_apply (A2 m c) (scaleVec m c) _ o).trans ?_
  exact congrArg (fun s : EReal => A2 m c (ix1 o) * s) (scaleVec_apply (A3 m c) _ _ _ _ o)

/-- Staged image entry (b, i, h, w, k) is launched image entry (b, i · 32 + h, w, k). -/
theorem v10_apply (b : Fin 8) (i : Fin 8) (h1 : Fin 32) (w : Fin 256) (k : Fin 64) :
    (V m c main_v10 : S8x8x32x256x64.Idx → EReal) (ix5 b i h1 w k)
      = A0 m c (ix4 b (⟨i.val * 32 + h1.val, by omega⟩ : Fin 256) w k) := by
  rw [V_main_v10]
  exact splitRows_apply (A0 m c) _ b i h1 w k

end

end Cert.WindowAttn.Host

end
-- ==== Proof.KernelFinal.lean ====
/-
  From blocks to the array: after its run the kernel's result array is `kerOut` of the four argument arrays.

  The grid has 32 points. Point t stages the slice h1 = t of the image laid out as [8, 8, 32, 256, 64] (image rows
  i·32 + t for i < 8), the whole 64 × 320 weight array and the whole 1 × 320 bias row, and writes back rows
  8t … 8t + 7 of the result. Entry (b, hh, cc, ch) of the block it writes is the sum over the 64 window pixels p of
  two entries of the projected slab of batch element b, at slab row p / 8 and column (p % 8)·32 + cc / 8. The staged
  weights and bias carry the folded scale, and slab row i is image row i·32 + t, so a slab entry is the scaled
  projection at image row i·32 + t; with r = 8t + hh one has (p / 8)·32 + r / 8 = (p / 8)·32 + t and r % 8 = hh, so
  the block entry is the result function at (b, 8t + hh, cc, ch). The 32 row blocks cover the array: row r is in the
  block of point r / 8.
-/
import proofs.«100604_j34291018891858_2_alg».proof.Proof.Gen.KernelIdeal.Value
import proofs.«100604_j34291018891858_2_alg».proof.Proof.Spec
import proofs.«100604_j34291018891858_2_alg».proof.Proof.KernelPieces
import proofs.«100604_j34291018891858_2_alg».proof.Proof.KernelPay
import proofs.«100604_j34291018891858_2_alg».proof.Proof.KernelHost
import Idealize.ShloMosaic.Lib.Pipeline.Value
import Idealize.ShloMosaic.Lib.ValueIdx

set_option maxRecDepth 16384

noncomputable section

open scoped BigOperators

namespace Cert.WindowAttn.Final

open Cert.KernelIdeal Cert.KernelIdeal.Gen Idealize.ShloMosaic Idealize.ShloMosaic.TcCoe Idealize.SL.Sem
open Idealize.ShloMosaic.ValueIdx Cert.WindowAttn
open Idealize.ShloMosaic.Pipeline (Dat)

variable (m : (ℓ : Loc nD τ sig) → Buf (Elt Ideal) ℓ) (ρ : Dev nD → PrngReg)

/-- The kernel's result array as one function of the four argument arrays: the windowed product of the
    projection with the temperature folded into the key rows of the weights and the bias. -/
abbrev K (c : Dev nD) : XArr := kerOut (Host.A0 m c) (Host.A1 m c) (Host.A2 m c) (Host.A3 m c)

/-! ### One entry of a projected slab, one entry of the block -/

/-- Entry (i, w, o) of the projected slab of batch element b, when the input block holds image rows i·32 + t and the
    staged weights and bias carry the scale, is the scaled projection at image row i·32 + t. -/
theorem qkBlk_slab (A0 : XArr) (A1 : WArr) (A2 : BArr) (A3 : TArr)
    (x0 : Vec Ideal S8x8x1x256x64 .f32) (x1 : Vec Ideal S64x320 .f32) (x2 : Vec Ideal S1x320 .f32) (tv : Nat) (ht : tv < 32)
    (e0 : ∀ (b i : Fin 8) (w : Fin 256) (k : Fin 64),
      x0 (ix5 b i (0 : Fin 1) w k) = A0 (ix4 b (⟨i.val * 32 + tv, by omega⟩ : Fin 256) w k))
    (e1 : ∀ (k : Fin 64) (o : Fin 320), x1 (ix2 k o) = A1 (ix2 o k) * scale A3 o)
    (e2 : ∀ o : Fin 320, x2 (ix2 (0 : Fin 1) o) = A2 (ix1 o) * scale A3 o)
    (b i : Fin 8) (w : Fin 256) (o : Fin 320) :
    Body.qkBlk x1 x2 (Pieces.slab x0 b) i w o = projScaled A0 A1 A2 A3 b (⟨i.val * 32 + tv, by omega⟩ : Fin 256) w o := by
  have hs : ∀ k : Fin 64, Pieces.slab x0 b (ix5 (0 : Fin 1) i (0 : Fin 1) w k)
      = A0 (ix4 b (⟨i.val * 32 + tv, by omega⟩ : Fin 256) w k) := fun k => e0 b i w k
  unfold Body.qkBlk projScaled
  simp only [hs, e1, e2]

/-- Entry (b, hh, cc, ch) of the block point t leaves is the result function at image row 8t + hh. -/
theorem block_entry (A0 : XArr) (A1 : WArr) (A2 : BArr) (A3 : TArr)
    (x0 : Vec Ideal S8x8x1x256x64 .f32) (x1 : Vec Ideal S64x320 .f32) (x2 : Vec Ideal S1x320 .f32) (tv : Nat) (ht : tv < 32)
    (e0 : ∀ (b i : Fin 8) (w : Fin 256) (k : Fin 64),
      x0 (ix5 b i (0 : Fin 1) w k) = A0 (ix4 b (⟨i.val * 32 + tv, by omega⟩ : Fin 256) w k))
    (e1 : ∀ (k : Fin 64) (o : Fin 320), x1 (ix2 k o) = A1 (ix2 o k) * scale A3 o)
    (e2 : ∀ o : Fin 320, x2 (ix2 (0 : Fin 1) o) = A2 (ix1 o) * scale A3 o)
    (b hh : Fin 8) (cc : Fin 256) (ch : Fin 64) :
    Pieces.blockOf x1 x2 x0 (ix4 b hh cc ch)
      = kerOut A0 A1 A2 A3 (ix4 b (⟨tv * 8 + hh.val, by omega⟩ : Fin 256) cc ch) := by
  show Cert.KernelIdeal.Gen.k0_pay1 (F := Ideal) x1 x2 (Pieces.slab x0 b) (ix4 (0 : Fin 1) hh cc ch)
    = attn (projScaled A0 A1 A2 A3) b (⟨tv * 8 + hh.val, by omega⟩ : Fin 256) cc ch
  rw [Body.pay_apply]
  unfold attn
  refine Finset.sum_congr rfl fun p _ => ?_
  rw [qkBlk_slab A0 A1 A2 A3 x0 x1 x2 tv ht e0 e1 e2, qkBlk_slab A0 A1 A2 A3 x0 x1 x2 tv ht e0 e1 e2]
  have hr : (⟨(Body.pRow p).val * 32 + tv, by have := (Body.pRow p).isLt; omega⟩ : Fin 256)
      = rowOf p (⟨tv * 8 + hh.val, by omega⟩ : Fin 256) := Fin.ext (by
    unfold Body.pRow rowOf; dsimp only; omega)
  have hc : Body.pCol p cc = colOf p cc := rfl
  have hq : Body.qChan hh cc ch = qCh (⟨tv * 8 + hh.val, by omega⟩ : Fin 256) cc ch := Fin.ext (by
    unfold Body.qChan qCh; dsimp only; omega)
  have hk : Body.kChan ch = kCh ch := rfl
  rw [hr, hc, hq, hk]

/-! ### The printed index maps, decided over the 32 grid points -/

theorem idx_facts : ∀ t : Fin cfg0.N,
    win0_0.index t (0 : Fin 5) = 0 ∧ win0_0.index t (1 : Fin 5) = 0 ∧ win0_0.index t (2 : Fin 5) = t.val
    ∧ win0_0.index t (3 : Fin 5) = 0 ∧ win0_0.index t (4 : Fin 5) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 4) = 0 ∧ win0_3.index t (1 : Fin 4) = t.val
    ∧ win0_3.index t (2 : Fin 4) = 0 ∧ win0_3.index t (3 : Fin 4) = 0 :=
  (by decide +kernel : ∀ t : Fin grid0.N, _)

theorem t_lt (t : Fin cfg0.N) : t.val < 32 := Nat.lt_of_lt_of_eq t.isLt N_0

/-! ### The input blocks at point t, read where their rectangles say -/

/-- The staged weights are the whole weight array. -/
theorem iblk1_apply (c : Dev nD) (t : Fin cfg0.N) (z : S64x320.Idx) :
    (iblk m c 1 t : Vec Ideal S64x320 .f32) z = (V m c main_v8 : S64x320.Idx → EReal) z := by
  obtain ⟨-, -, -, -, -, f0, f1, -⟩ := idx_facts t
  unfold iblk
  rw [View.read_apply]
  show V m c main_v8 _ = V m c main_v8 _
  refine congrArg (V m c main_v8) (funext fun a => Fin.ext ?_)
  match a with
  | ⟨0, _⟩ => show win0_1.index t (0 : Fin 2) * 64 + 1 * (z 0).val = (z 0).val; rw [f0]; omega
  | ⟨1, _⟩ => show win0_1.index t (1 : Fin 2) * 320 + 1 * (z 1).val = (z 1).val; rw [f1]; omega

/-- The staged bias is the whole bias row. -/
theorem iblk2_apply (c : Dev nD) (t : Fin cfg0.N) (z : S1x320.Idx) :
    (iblk m c 2 t : Vec Ideal S1x320 .f32) z = (V m c main_v9 : S1x320.Idx → EReal) z := by
  obtain ⟨-, -, -, -, -, -, -, f0, f1, -⟩ := idx_facts t
  unfold iblk
  rw [View.read_apply]
  show V m c main_v9 _ = V m c main_v9 _
  refine congrArg (V m c main_v9) (funext fun a => Fin.ext ?_)
  match a with
  | ⟨0, _⟩ => show win0_2.index t (0 : Fin 2) * 1 + 1 * (z 0).val = (z 0).val; rw [f0]; omega
  | ⟨1, _⟩ => show win0_2.index t (1 : Fin 2) * 320 + 1 * (z 1).val = (z 1).val; rw [f1]; omega

/-- The input block at point t is the slice h1 = t of the five-axis image. -/
theorem iblk0_apply (c : Dev nD) (t : Fin cfg0.N) (b i : Fin 8) (w : Fin 256) (k : Fin 64) :
    (iblk m c 0 t : Vec Ideal S8x8x1x256x64 .f32) (ix5 b i (0 : Fin 1) w k)
      = (V m c main_v10 : S8x8x32x256x64.Idx → EReal) (ix5 b i (⟨t.val, t_lt t⟩ : Fin 32) w k) := by
  obtain ⟨f0, f1, f2, f3, f4, -⟩ := idx_facts t
  unfold iblk
  rw [View.read_apply]
  show V m c main_v10 _ = V m c main_v10 _
  refine congrArg (V m c main_v10) (funext fun a => Fin.ext ?_)
  match a with
  | ⟨0, _⟩ => show win0_0.index t (0 : Fin 5) * 8 + 1 * b.val = b.val; rw [f0]; omega
  | ⟨1, _⟩ => show win0_0.index t (1 : Fin 5) * 8 + 1 * i.val = i.val; rw [f1]; omega
  | ⟨2, _⟩ => show win0_0.index t (2 : Fin 5) * 1 + 1 * 0 = t.val; rw [f2]; omega
  | ⟨3, _⟩ => show win0_0.index t (3 : Fin 5) * 256 + 1 * w.val = w.val; rw [f3]; omega
  | ⟨4, _⟩ => show win0_0.index t (4 : Fin 5) * 64 + 1 * k.val = k.val; rw [f4]; omega

/-! ### What point t writes back -/

/-- Point t writes back block t of the result function: rows 8t … 8t + 7. -/
theorem flushed_eq (c : Dev nD) (t : Fin cfg0.N) :
    (dats m 0 c).flushed 3 t = ((cfg0.win 3).blk t).view.read (Elt Ideal) (K m c) := by
  rw [Cert.KernelIdeal.Value.flushed3_A, Pieces.out_eq]
  obtain ⟨-, -, -, -, -, -, -, -, -, g0, g1, g2, g3⟩ := idx_facts t
  show (Pieces.blockOf (iblk m c 1 t) (iblk m c 2 t) (iblk m c 0 t) : S8x8x256x64.Idx → EReal)
    = (((cfg0.win 3).blk t).view.read (Elt Ideal) (K m c) : S8x8x256x64.Idx → EReal)
  funext y
  obtain ⟨b, hh, cc, ch, rfl⟩ : ∃ (b hh : Fin 8) (cc : Fin 256) (ch : Fin 64), y = ix4 b hh cc ch :=
    ⟨y 0, y 1, y 2, y 3, eq_ix4 y⟩
  refine (block_entry (Host.A0 m c) (Host.A1 m c) (Host.A2 m c) (Host.A3 m c)
    (iblk m c 0 t) (iblk m c 1 t) (iblk m c 2 t) t.val (t_lt t)
    (fun b i w k => (iblk0_apply m c t b i w k).trans (Host.v10_apply m c b i ⟨t.val, t_lt t⟩ w k))
    (fun k o => (iblk1_apply m c t (ix2 k o)).trans (Host.v8_apply m c k o))
    (fun o => (iblk2_apply m c t (ix2 (0 : Fin 1) o)).trans (Host.v9_apply m c o)) b hh cc ch).trans ?_
  rw [View.read_apply]
  refine congrArg (K m c) (funext fun a => Fin.ext ?_)
  match a with
  | ⟨0, _⟩ => show b.val = win0_3.index t (0 : Fin 4) * 8 + 1 * b.val; rw [g0]; omega
  | ⟨1, _⟩ => show t.val * 8 + hh.val = win0_3.index t (1 : Fin 4) * 8 + 1 * hh.val; rw [g1]; omega
  | ⟨2, _⟩ => show cc.val = win0_3.index t (2 : Fin 4) * 256 + 1 * cc.val; rw [g2]; omega
  | ⟨3, _⟩ => show ch.val = win0_3.index t (3 : Fin 4) * 64 + 1 * ch.val; rw [g3]; omega

/-! ### The blocks cover the array -/

/-- An index of the array is in point t's block iff each coordinate is in the block's range on its axis. -/
theorem mem_blk (t : Fin cfg0.N) (i : S8x256x256x64.Idx) :
    i ∈ ((cfg0.win 3).blk t).view.set ↔ ∀ a : Fin 4, win0_3.index t a * S8x8x256x64.size a ≤ (i a).val
      ∧ (i a).val < win0_3.index t a * S8x8x256x64.size a + S8x8x256x64.size a := by
  show i ∈ ((View.whole main_v11).slice (win0_3.rect t)).set ↔ _
  rw [View.set_slice_whole, Rect.mem_set_unit]
  exact Iff.rfl

/-- Row r of the image is written by point r / 8. -/
theorem cover (i : S8x256x256x64.Idx) :
    ∃ t : Fin cfg0.N, (cfg0.win 3).flush t = true ∧ i ∈ ((cfg0.win 3).blk t).view.set := by
  have h0 : (i 0).val < 8 := (i 0).isLt
  have h1 : (i 1).val < 256 := (i 1).isLt
  have h2 : (i 2).val < 256 := (i 2).isLt
  have h3 : (i 3).val < 64 := (i 3).isLt
  have hN : (i 1).val / 8 < cfg0.N := by rw [show cfg0.N = 32 from N_0]; omega
  obtain ⟨-, -, -, -, -, -, -, -, -, g0, g1, g2, g3⟩ := idx_facts ⟨(i 1).val / 8, hN⟩
  refine ⟨⟨(i 1).val / 8, hN⟩, flush0_3 _, ?_⟩
  rw [mem_blk]
  intro a
  match a with
  | ⟨0, _⟩ =>
    show win0_3.index ⟨(i 1).val / 8, hN⟩ (0 : Fin 4) * 8 ≤ (i 0).val ∧ (i 0).val < win0_3.index ⟨(i 1).val / 8, hN⟩ (0 : Fin 4) * 8 + 8
    rw [g0]; omega
  | ⟨1, _⟩ =>
    show win0_3.index ⟨(i 1).val / 8, hN⟩ (1 : Fin 4) * 8 ≤ (i 1).val ∧ (i 1).val < win0_3.index ⟨(i 1).val / 8, hN⟩ (1 : Fin 4) * 8 + 8
    rw [g1]; show (i 1).val / 8 * 8 ≤ (i 1).val ∧ (i 1).val < (i 1).val / 8 * 8 + 8; omega
  | ⟨2, _⟩ =>
    show win0_3.index ⟨(i 1).val / 8, hN⟩ (2 : Fin 4) * 256 ≤ (i 2).val ∧ (i 2).val < win0_3.index ⟨(i 1).val / 8, hN⟩ (2 : Fin 4) * 256 + 256
    rw [g2]; omega
  | ⟨3, _⟩ =>
    show win0_3.index ⟨(i 1).val / 8, hN⟩ (3 : Fin 4) * 64 ≤ (i 3).val ∧ (i 3).val < win0_3.index ⟨(i 1).val / 8, hN⟩ (3 : Fin 4) * 64 + 64
    rw [g3]; omega

/-- THE ARRAY after the run is the result function of the four arguments. -/
theorem final (c : Dev nD) : (dats m 0 c).arrAt 3 cfg0.N = K m c :=
  (dats m 0 c).arrAt_eq_of_cover 3 (K m c) (fun t _ => flushed_eq m c t) cover

/-! ### The run, read -/

/-- Every fair run of the kernel program ends with the result array at the result function of the arguments, the
    arguments unchanged. -/
theorem run : θ_run defs (onTc (τ := τ) (main (F := Ideal))) ⟨m, fun _ => 0, ρ⟩ fun r => ∀ c : Dev nD,
      r.2.mem ((c : Thread nD τ).loc main_v11) = Cert.WindowAttn.kerOut (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.WindowAttn.Final

end
-- ==== Proof.lean ====
/-
  Windowed attention scores with a per-head temperature: the fused kernel against its array-level reference, on the
  extended reals.

  Both programs project every pixel of an 8 × 256 × 256 image from 64 to 320 channels (256 query channels, 64 key
  channels), gather for each of the 32 × 32 strided windows its 64 pixels (rows (p / 8)·32 + h1, columns
  (p % 8)·32 + w1), and for each of the four heads multiply the 64 × 64 matrix of queries by the transposed 16 × 64
  matrix of keys, contracting the window pixel. Output entry (b, r, c, ch) is the entry of that product for window
  (r / 8, c / 8), head ch / 16, query position (r % 8, c % 8) and key channel ch % 16, times the head's temperature.
  The reference multiplies by the temperature after the product. The kernel multiplies the key rows of the
  projection weights and bias by it beforehand, works one window row per grid point and one batch element per
  loop trip, and writes eight image rows per grid point.

  The kernel's result array is `kerOut` of the arguments (the stored value of a trip read entry by entry, the eight
  stores of a grid point tiling its block, the 32 blocks tiling the array, the host operations before the launch
  read at an entry). The reference's result array is `refOut` of the arguments (its operations read one at a time
  at an entry). The two agree when every entry of every argument is a real number, which is the precondition:
  moving a real factor across a finite sum of real numbers is distributivity, and it is the only law used that
  needs finiteness.
-/
import proofs.«100604_j34291018891858_2_alg».proof.Defs
import proofs.«100604_j34291018891858_2_alg».proof.Proof.Gen.Kernel
import proofs.«100604_j34291018891858_2_alg».proof.Proof.Gen.Kernel.Frame
import proofs.«100604_j34291018891858_2_alg».proof.Proof.Gen.KernelIdeal
import proofs.«100604_j34291018891858_2_alg».proof.Proof.Gen.KernelIdeal.Frame
import proofs.«100604_j34291018891858_2_alg».proof.Proof.Gen.KernelIdeal.Value
import proofs.«100604_j34291018891858_2_alg».proof.Proof.Gen.ReferenceIdeal
import proofs.«100604_j34291018891858_2_alg».proof.Proof.Gen.ReferenceIdeal.Run
import proofs.«100604_j34291018891858_2_alg».proof.Proof.Gen.ReferenceIdeal.Read
import proofs.«100604_j34291018891858_2_alg».proof.Proof.Gen.Pre_finite_inputs
import proofs.«100604_j34291018891858_2_alg».proof.Proof.Spec
import proofs.«100604_j34291018891858_2_alg».proof.Proof.Algebra
import proofs.«100604_j34291018891858_2_alg».proof.Proof.Finite
import proofs.«100604_j34291018891858_2_alg».proof.Proof.RefRead
import proofs.«100604_j34291018891858_2_alg».proof.Proof.KernelFinal
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the four arguments, all of whose entries are real numbers, the idealized kernel ends
    with its result at `kerOut` of the arguments and the idealized reference with its result at `refOut` of them; the
    two arrays are equal. -/
theorem algebraic : Cert.algebraic_KernelIdeal_ReferenceIdeal := by
  intro m ρ m' ρ' hpre hagree
  refine ⟨_, Cert.WindowAttn.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  obtain ⟨h0, h1, h2, h3⟩ := Cert.WindowAttn.Finite.all_real _ _ _ _ (hpre c)
  exact (Cert.ReferenceIdeal.Read.val_main_v20_eq _ _ _ _).trans
    ((Cert.WindowAttn.Ref.ref_eq _ _ _ _).trans (Cert.WindowAttn.kerOut_eq_refOut _ _ _ _ h0 h1 h2 h3).symm)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
